-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x500000 : Shape := ⟨2, ![2, 500000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S256x128 .f32) (main_arg8 : FVec F S128 .f32) (main_arg9 : FVec F S128x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S2x500000 32) (main_arg3 : FVec F S128x128 .f32) (main_arg4 : FVec F S128 .f32) (main_arg5 : FVec F S128x128 .f32) (main_arg6 : FVec F S128 .f32) (main_arg7 : FVec F S256x128 .f32) (main_arg8 : FVec F S128 .f32) (main_arg9 : FVec F S128x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S2x500000 : Shape := ⟨2, ![2, 500000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S1x1 : Shape := ⟨2, ![1, 1]⟩

abbrev nBuf : Space → Nat
  | .hbm => 92
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x500000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000x128, .f32⟩
  | .hbm, ⟨43, _⟩ => ⟨S_, .f32⟩
  | .hbm, ⟨44, _⟩ => ⟨S100000x128, .f32⟩
  | .hbm, ⟨45, _⟩ => ⟨S1700000x1, .i32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S1x500000, .i32⟩
  | .hbm, ⟨65, _⟩ => ⟨S500000, .i32⟩
  | .hbm, ⟨66, _⟩ => ⟨S1x500000, .i32⟩
  | .hbm, ⟨67, _⟩ => ⟨S500000, .i32⟩
  | .hbm, ⟨68, _⟩ => ⟨S_, .i32⟩
  | .hbm, ⟨69, _⟩ => ⟨S500000, .i32⟩
  | .hbm, ⟨70, _⟩ => ⟨S500000, .i1⟩
  | .hbm, ⟨71, _⟩ => ⟨S_, .i32⟩
  | .hbm, ⟨72, _⟩ => ⟨S500000, .i32⟩
  | .hbm, ⟨73, _⟩ => ⟨S500000, .i32⟩
  | .hbm, ⟨74, _⟩ => ⟨S500000, .i32⟩
  | .hbm, ⟨75, _⟩ => ⟨S500000x1, .i32⟩
  | .hbm, ⟨76, _⟩ => ⟨S500000x128, .f32⟩
  | .hbm, ⟨77, _⟩ => ⟨S_, .i32⟩
  | .hbm, ⟨78, _⟩ => ⟨S500000, .i32⟩
  | .hbm, ⟨79, _⟩ => ⟨S500000, .i1⟩
  | .hbm, ⟨80, _⟩ => ⟨S_, .i32⟩
  | .hbm, ⟨81, _⟩ => ⟨S500000, .i32⟩
  | .hbm, ⟨82, _⟩ => ⟨S500000, .i32⟩
  | .hbm, ⟨83, _⟩ => ⟨S500000, .i32⟩
  | .hbm, ⟨84, _⟩ => ⟨S500000x1, .i32⟩
  | .hbm, ⟨85, _⟩ => ⟨S500000x128, .f32⟩
  | .hbm, ⟨86, _⟩ => ⟨S128x128, .f32⟩
  | .hbm, ⟨87, _⟩ => ⟨S128x128, .f32⟩
  | .hbm, ⟨88, _⟩ => ⟨S1x128, .f32⟩
  | .hbm, ⟨89, _⟩ => ⟨S1x1, .f32⟩
  | .hbm, ⟨90, _⟩ => ⟨S500000x1, .f32⟩
  | .hbm, ⟨91, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S128x1, .f32⟩
  | .local _ .vmem, ⟨30, _⟩ => ⟨S1x1, .f32⟩
  | .local _ .vmem, ⟨31, _⟩ => ⟨S5000x1, .f32⟩
  | .local _ .vmem, ⟨32, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg7_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31
abbrev cc3_sem7_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  slices_S256x128_S128x128_0_0 : S256x128.Slices ![0, 0] S128x128
  slices_S256x128_S128x128_128_0 : S256x128.Slices ![128, 0] S128x128
  shapeCasts_S1_S1x1 : S1.ShapeCasts S1x1
  shapeCasts_S128x128_S128x128 : S128x128.ShapeCasts S128x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S500000x1_S500000 : S500000x1.ShapeCasts S500000
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S500000x1_S500000x128_1_0_n_n_0_1_1128_wf : GatherDims.WF S100000x128 S500000x1 S500000x128 [1] [0] [] [0] [] 1 ![1, 128]
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S500000x128.size a
  hwx3_0 : ∀ i : grid3.Coords, EltTy.bits .f32 = 32 ∨ (Rect.block (s := S500000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S500000x128.size a
  hwx3_1 : ∀ i : grid3.Coords, EltTy.bits .f32 = 32 ∨ (Rect.block (s := S500000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x1.size a ≤ S500000x1.size a
  hwx3_7 : ∀ i : grid3.Coords, EltTy.bits .f32 = 32 ∨ (Rect.block (s := S500000x1) S5000x1.size (cc3_transform_7 i) (hinb3_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v51) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg9) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v62) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v63) S5000x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x500000 : Shape := ⟨2, ![2, 500000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S500000x256 : Shape := ⟨2, ![500000, 256]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S2x500000, .i32⟩
  | 3 => ⟨S128x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x1, .f32⟩
  | 10 => ⟨S1, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x128, .f32⟩
  | 84 => ⟨S1700000x1, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S1x128, .f32⟩
  | 92 => ⟨S100000x128, .f32⟩
  | 93 => ⟨S100000x128, .f32⟩
  | 94 => ⟨S1x500000, .i32⟩
  | 95 => ⟨S500000, .i32⟩
  | 96 => ⟨S1x500000, .i32⟩
  | 97 => ⟨S500000, .i32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x128, .f32⟩
  | 107 => ⟨S_, .i32⟩
  | 108 => ⟨S500000, .i32⟩
  | 109 => ⟨S500000, .i1⟩
  | 110 => ⟨S_, .i32⟩
  | 111 => ⟨S500000, .i32⟩
  | 112 => ⟨S500000, .i32⟩
  | 113 => ⟨S500000, .i32⟩
  | 114 => ⟨S500000x1, .i32⟩
  | 115 => ⟨S500000x128, .f32⟩
  | 116 => ⟨S500000x256, .f32⟩
  | 117 => ⟨S500000x128, .f32⟩
  | 118 => ⟨S1x128, .f32⟩
  | 119 => ⟨S500000x128, .f32⟩
  | 120 => ⟨S500000x128, .f32⟩
  | 121 => ⟨S_, .f32⟩
  | 122 => ⟨S500000x128, .f32⟩
  | 123 => ⟨S500000x128, .f32⟩
  | 124 => ⟨S500000x1, .f32⟩
  | 125 => ⟨S1x1, .f32⟩
  | 126 => ⟨S500000x1, .f32⟩
  | 127 => ⟨S500000x1, .f32⟩
  | _ => ⟨S100000x128, .f32⟩

abbrev hbmTy0_1 (i : Nat) : BufTy := match i % 128 with
  | 0 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_12 : Ref sig .tc := ⟨.hbm, 98, rfl⟩
abbrev main_v69 : Ref sig .tc := ⟨.hbm, 99, rfl⟩
abbrev main_v70 : Ref sig .tc := ⟨.hbm, 100, rfl⟩
abbrev main_c_13 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_14 : Ref sig .tc := ⟨.hbm, 107, rfl⟩
abbrev main_v76 : Ref sig .tc := ⟨.hbm, 108, rfl⟩
abbrev main_v77 : Ref sig .tc := ⟨.hbm, 109, rfl⟩
abbrev main_c_15 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_call2_cst : Ref sig .tc := ⟨.hbm, 121, rfl⟩
abbrev main_call2_v0 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S500000x1_S500000x128_1_0_n_n_0_1_1128_wf : GatherDims.WF S100000x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x1_S500000x1_1_0_0_1_n_n_wf : DotDims.WF S500000x128 S128x1 S500000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.KernelRun.lean ====
/-
  The idealized kernel's run with its result named.

  @main is eleven segments on each core: three stretches of host operations (the edge lists with their self loops, the
  degrees and their inverse square roots), then four grid regions alternating with host stretches (a gather along the
  source nodes and a scatter-add onto the target nodes after each of the first two regions, the two gathers of the
  pair endpoints before the last), and the final reshape. The contents of every unscoped buffer at each boundary are
  a fold from the launch memory: a host stretch applies its operations, a region replaces its output array by what its
  write-backs leave. This module runs the library's theorem for such a list of segments and keeps, beside the unchanged
  arguments, the result buffer at the fold's last valuation; the value proof then reads that valuation backwards.
-/
import proofs.«174276_j5016521801943_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core holds when @main starts: every unscoped buffer at its launch contents, beside the generator register
    and an empty debt. -/
abbrev atLaunch (c : Dev nD) : sProp 𝕄 :=
  iprop(StableHlo.held (c : Thread nD τ) (Pipeline.ucRefs τ sig) (W0 m ρ c) ∗ R c)

/-- The four pipelines are entered once each. -/
theorem pipes_nodup : (Pipeline.Seg.pipes (segs m ρ)).Nodup := by
  simp only [segs, Pipeline.Seg.pipes_host, Pipeline.Seg.pipes_region, Pipeline.Seg.pipes_nil]
  decide

/-- Each segment is entered from the state the one before it leaves: the boundary valuations are defined as that fold,
    so every link but the last is an identity; after the final reshape the debt is split off from the buffers and the
    register. -/
theorem chains : Pipeline.Seg.Chains (atLaunch m ρ) (segs m ρ)
    (fun c => iprop(Tₙ m ρ c ∗ ∃ W, owes (c : Thread nD τ) (0 : CellTallies nD τ sig Unit) W)) := by
  refine ⟨fun _ => .rfl, fun _ => .rfl, fun _ => .rfl, fun _ => .rfl, fun _ => .rfl, fun _ => .rfl, fun _ => .rfl,
    fun _ => .rfl, fun _ => .rfl, fun _ => .rfl, fun _ => .rfl, fun c => ?_⟩
  dsimp only [Pipeline.Seg.post, hseg, Pipeline.HostSeg.ofOps]
  iintro ⟨Hbufs, Hreg, Hdebt⟩
  isplitr [Hdebt]
  · isplitl [Hbufs]
    · iexact Hbufs
    · iexact Hreg
  · iexact Hdebt

set_option backward.isDefEq.respectTransparency.types false in
/-- The run of @main: it ends, nothing faults, the result buffer holds what the segments' fold leaves in it
    (`Gen.W11`) and every argument array is as launched. -/
theorem run_result : θ_run defs (onTc (τ := τ) (main (F := F))) ⟨m, fun _ => 0, ρ⟩ (fun r => ∀ c : Dev nD,
      r.2.mem ((c.tc : Thread nD τ).loc main_v64) = W11 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit (pcfgs (F := F)) adm (pdats m ρ) () cellOf_inj emb₁ defs₀ 𝒱₀ L lv m ρ main (segs m ρ)
    (fun c Q => by rw [main_run m ρ c]) (pipes_nodup m ρ)
    (O₀ := 0) (hL := fun _ _ => rfl) (G := fun _ => iprop(emp))
    (u₀ := initOf (Pipeline.cells cfgs cellOf_inj) (Pipeline.launchToks cfgs cellOf_inj))
    (hu₀ := ?launch) (T₀ := atLaunch m ρ) (Tₙ := Tₙ m ρ) (hch := chains m ρ) (hinit := ?first)
    (QY := fun c s => ∀ b ∈ Pipeline.ucRefs τ sig, s.mem (((c : Thread nD τ)).1, b) = W11 m ρ c b)
    (hfin := ?last) (hQ := ?post)
  case launch =>
    -- the launch element is the staging cells' ghost state itself, and no core asks for a resource of its own
    iintro Hcells
    imodintro
    isplitl [Hcells]
    · -- owning the launch element IS owning its image among the pipelines' cells: the two spellings unfold to one term
      iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hcells
    · iapply (show (BI.emp : sProp 𝕄) ⊢ bigSep Finset.univ (fun _ : Dev nD => (BI.emp : sProp 𝕄)) from by
        rw [BI.bigSep_emp_const])
      iempintro
  case first =>
    -- core by core: the launch's unscoped buffers are the held set at the launch valuation; the register and the
    -- empty debt ride along, the rest of what the launch deals is not needed
    refine Pipeline.initEach L lv fun c => ?_
    rw [show unscopedBufs c (fun b => m ((c : Thread nD τ).loc b))
        = StableHlo.held (c : Thread nD τ) (Pipeline.ucRefs τ sig) (W0 m ρ c) from Pipeline.unscopedBufs_held c (W0 m ρ c)]
    iintro ⟨⟨Hbufs, -, Hdebt, -, Hreg, -⟩, -⟩
    imodintro
    isplitl [Hbufs]
    · iexact Hbufs
    isplitl [Hreg]
    · iexists _
      iexact Hreg
    · iexists ∅
      iexact Hdebt
  case last =>
    -- the held buffers read against the final state: the memory holds the last valuation at each of them
    intro c s'
    iintro ⟨⟨Hbufs, -⟩, Hstate⟩
    unfold StableHlo.held
    imodintro
    iapply (pointsTo_read_all (Pipeline.ucRefs τ sig) (fun b => (((c : Thread nD τ)).1, b)) (W11 m ρ c) s')
    isplitl [Hbufs] <;> iassumption
  case post =>
    -- the result buffer is read as it stands; each argument's buffer walks back through the fold to the launch
    intro s h c
    exact ⟨h c _ (mem_uc main_v64 (by decide)),
      (h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c),
      (h c _ (mem_uc main_arg8 (by decide))).trans (W11_main_arg8 m ρ c),
      (h c _ (mem_uc main_arg9 (by decide))).trans (W11_main_arg9 m ρ c),
      (h c _ (mem_uc main_arg10 (by decide))).trans (W11_main_arg10 m ρ c)⟩

end Cert.KernelIdeal.RunValue

end
-- ==== Proof.KernelFold.lean ====
/-
  The kernel's buffers between its regions, read backwards.

  Two kinds of fact. A buffer that no operation of a host stretch writes, and that no region stages as one of its
  arrays, holds at a later boundary what it held at an earlier one: the arguments hold their launch contents
  everywhere, and the edge lists' row and column arrays and the per-node factor hold at every later boundary what
  region 0 found. And each host stretch's results are its operations applied to the contents of the boundary before
  it: after the first two regions a gather of the region's output along the (normalised) row array followed by a
  scatter-add onto the column array; before the last region the two gathers of the second layer's output at the
  pair endpoints, the two halves of the scorer's first weight matrix, and the biases as rows.
-/
import proofs.«174276_j5016521801943_2_alg».proof.Proof.Gen.KernelIdeal.Frame
import Idealize.ShloMosaic.Lib.StableHlo.Run
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- Walks a buffer's contents back through the segments that do not touch it: a region leaves every buffer but its
    own arrays as entered, a host stretch every buffer but its operations' results. -/
macro "walk_back" : tactic => `(tactic| repeat (first
    | (rw [W10_of_ne]; rotate_left; decide)
    | (rw [W8_of_ne]; rotate_left; decide)
    | (rw [W6_of_ne]; rotate_left; decide)
    | (rw [W4_of_ne]; rotate_left; decide)
    | after_results))

/-! ## The arguments, wherever they are read -/

theorem arg0_at3 : W3 m ρ c (Proc.devRef .tc main_arg0) = m ((c : Thread nD τ).loc main_arg0) := by walk_back
theorem arg3_at3 : W3 m ρ c (Proc.devRef .tc main_arg3) = m ((c : Thread nD τ).loc main_arg3) := by walk_back
theorem arg4_at4 : W4 m ρ c (Proc.devRef .tc main_arg4) = m ((c : Thread nD τ).loc main_arg4) := by walk_back
theorem arg5_at5 : W5 m ρ c (Proc.devRef .tc main_arg5) = m ((c : Thread nD τ).loc main_arg5) := by walk_back
theorem arg6_at6 : W6 m ρ c (Proc.devRef .tc main_arg6) = m ((c : Thread nD τ).loc main_arg6) := by walk_back
theorem arg2_at8 : W8 m ρ c (Proc.devRef .tc main_arg2) = m ((c : Thread nD τ).loc main_arg2) := by walk_back
theorem arg7_at8 : W8 m ρ c (Proc.devRef .tc main_arg7) = m ((c : Thread nD τ).loc main_arg7) := by walk_back
theorem arg8_at8 : W8 m ρ c (Proc.devRef .tc main_arg8) = m ((c : Thread nD τ).loc main_arg8) := by walk_back
theorem arg10_at8 : W8 m ρ c (Proc.devRef .tc main_arg10) = m ((c : Thread nD τ).loc main_arg10) := by walk_back
theorem arg9_at9 : W9 m ρ c (Proc.devRef .tc main_arg9) = m ((c : Thread nD τ).loc main_arg9) := by walk_back

/-! ## The row array, the column array and the per-node factor: at every later boundary what region 0 found -/

theorem rows_at4 : W4 m ρ c (Proc.devRef .tc main_v3) = W3 m ρ c (Proc.devRef .tc main_v3) := by
  rw [W4_of_ne]; decide
theorem cols_at4 : W4 m ρ c (Proc.devRef .tc main_v6) = W3 m ρ c (Proc.devRef .tc main_v6) := by
  rw [W4_of_ne]; decide
theorem factor_at5 : W5 m ρ c (Proc.devRef .tc main_v15) = W3 m ρ c (Proc.devRef .tc main_v15) :=
  -- region 0 stages the factor as its third input window, and an input window's array is left as entered
  (show W5 m ρ c (Proc.devRef .tc main_v15) = W4 m ρ c (Proc.devRef .tc main_v15) by after_results).trans
    ((W4_arr m ρ c 2).trans (((dat0 (V3 m ρ) c).arrAt_in 2 rfl _).trans (A_eq0 (V3 m ρ) c 2)))
theorem rows_at5 : W5 m ρ c (Proc.devRef .tc main_v3) = W3 m ρ c (Proc.devRef .tc main_v3) :=
  (show W5 m ρ c (Proc.devRef .tc main_v3) = W4 m ρ c (Proc.devRef .tc main_v3) by after_results).trans (rows_at4 m ρ c)
theorem cols_at5 : W5 m ρ c (Proc.devRef .tc main_v6) = W3 m ρ c (Proc.devRef .tc main_v6) :=
  (show W5 m ρ c (Proc.devRef .tc main_v6) = W4 m ρ c (Proc.devRef .tc main_v6) by after_results).trans (cols_at4 m ρ c)
theorem rows_at6 : W6 m ρ c (Proc.devRef .tc main_v3) = W3 m ρ c (Proc.devRef .tc main_v3) :=
  (W6_of_ne m ρ c main_v3 (by decide)).trans (rows_at5 m ρ c)
theorem cols_at6 : W6 m ρ c (Proc.devRef .tc main_v6) = W3 m ρ c (Proc.devRef .tc main_v6) :=
  (W6_of_ne m ρ c main_v6 (by decide)).trans (cols_at5 m ρ c)
theorem factor_at7 : W7 m ρ c (Proc.devRef .tc main_v15) = W3 m ρ c (Proc.devRef .tc main_v15) :=
  (show W7 m ρ c (Proc.devRef .tc main_v15) = W6 m ρ c (Proc.devRef .tc main_v15) by after_results).trans
    -- region 1 stages it as its second input window
    (((W6_arr m ρ c 1).trans (((dat1 (V5 m ρ) c).arrAt_in 1 rfl _).trans (A_eq1 (V5 m ρ) c 1))).trans (factor_at5 m ρ c))

/-! ## One propagation step on the host, and the stretches' other results -/

/-- A list of node indices made ready for a gather: an index below zero has the number of nodes added (the gather
    itself then clamps into range), and the list is laid out as a column. -/
def asStarts (v : S1700000.Idx → BitVec 32) : S1700000x1.Idx → BitVec 32 :=
  broadcastInDim S1700000x1 ![0] bcast_S1700000_S1700000x1_0
    (select (cmpi CmpIPredicate.slt v (broadcastInDim S1700000 ![] bcast_S_S1700000 (constantI S_ 32 0#32)))
      (addi v (broadcastInDim S1700000 ![] bcast_S_S1700000 (constantI S_ 32 100000#32))) v)

/-- One propagation step: the rows of `X` gathered along the row list, then added, from zeros, onto the nodes the
    column list names (a column index outside the node range drops its row). -/
def propagate (rows cols : S1700000.Idx → BitVec 32) (X : S100000x128.Idx → EReal) : S100000x128.Idx → EReal :=
  Host.scatterAdd scatter_S100000x128_S1700000x1_S1700000x128_1_0_0_1
    (broadcastInDim S100000x128 ![] bcast_S_S100000x128 (constant (F := Ideal) S_ FTy.f32 0#32))
    (broadcastInDim S1700000x1 ![0] bcast_S1700000_S1700000x1_0 cols)
    (Host.gather gather_S100000x128_S1700000x1_S1700000x128_1_0_n_n_0_1_1128 X (asStarts rows))

/-- After region 0: the first aggregate is one propagation step of region 0's output. -/
theorem aggregate1 : W5 m ρ c (Proc.devRef .tc main_v26)
    = propagate (W3 m ρ c (Proc.devRef .tc main_v3)) (W3 m ρ c (Proc.devRef .tc main_v6)) (W4 m ρ c (Proc.devRef .tc main_v16)) :=
  (show W5 m ρ c (Proc.devRef .tc main_v26)
      = propagate (W4 m ρ c (Proc.devRef .tc main_v3)) (W4 m ρ c (Proc.devRef .tc main_v6)) (W4 m ρ c (Proc.devRef .tc main_v16)) by
    after_results; rfl).trans (by rw [rows_at4 m ρ c, cols_at4 m ρ c])

/-- The first layer's bias as a row. -/
theorem bias1_row : W5 m ρ c (Proc.devRef .tc main_v27) = shapeCast S1x128 (m ((c : Thread nD τ).loc main_arg4)) shapeCasts_S128_S1x128 :=
  (show W5 m ρ c (Proc.devRef .tc main_v27) = shapeCast S1x128 (W4 m ρ c (Proc.devRef .tc main_arg4)) shapeCasts_S128_S1x128 by
    after_results; rfl).trans (by rw [arg4_at4 m ρ c])

/-- After region 1: the second aggregate is one propagation step of region 1's output. -/
theorem aggregate2 : W7 m ρ c (Proc.devRef .tc main_v38)
    = propagate (W3 m ρ c (Proc.devRef .tc main_v3)) (W3 m ρ c (Proc.devRef .tc main_v6)) (W6 m ρ c (Proc.devRef .tc main_v28)) :=
  (show W7 m ρ c (Proc.devRef .tc main_v38)
      = propagate (W6 m ρ c (Proc.devRef .tc main_v3)) (W6 m ρ c (Proc.devRef .tc main_v6)) (W6 m ρ c (Proc.devRef .tc main_v28)) by
    after_results; rfl).trans (by rw [rows_at6 m ρ c, cols_at6 m ρ c])

/-- The second layer's bias as a row. -/
theorem bias2_row : W7 m ρ c (Proc.devRef .tc main_v39) = shapeCast S1x128 (m ((c : Thread nD τ).loc main_arg6)) shapeCasts_S128_S1x128 :=
  (show W7 m ρ c (Proc.devRef .tc main_v39) = shapeCast S1x128 (W6 m ρ c (Proc.devRef .tc main_arg6)) shapeCasts_S128_S1x128 by
    after_results; rfl).trans (by rw [arg6_at6 m ρ c])

/-- A list of pair endpoints made ready for a gather, as `asStarts`. -/
def pairStarts (v : S500000.Idx → BitVec 32) : S500000x1.Idx → BitVec 32 :=
  broadcastInDim S500000x1 ![0] bcast_S500000_S500000x1_0
    (select (cmpi CmpIPredicate.slt v (broadcastInDim S500000 ![] bcast_S_S500000 (constantI S_ 32 0#32)))
      (addi v (broadcastInDim S500000 ![] bcast_S_S500000 (constantI S_ 32 100000#32))) v)

/-- The pairs' first endpoints: row 0 of the pair array. -/
def pairSources (a2 : S2x500000.Idx → BitVec 32) : S500000.Idx → BitVec 32 :=
  shapeCast S500000 (extractStridedSlice S1x500000 ![0, 0] a2 slices_S2x500000_S1x500000_0_0) shapeCasts_S1x500000_S500000
/-- The pairs' second endpoints: row 1 of the pair array. -/
def pairTargets (a2 : S2x500000.Idx → BitVec 32) : S500000.Idx → BitVec 32 :=
  shapeCast S500000 (extractStridedSlice S1x500000 ![1, 0] a2 slices_S2x500000_S1x500000_1_0) shapeCasts_S1x500000_S500000

/-- Before the last region: the second layer's output gathered at the pairs' first endpoints. -/
theorem sources_rows : W9 m ρ c (Proc.devRef .tc main_v51)
    = Host.gather gather_S100000x128_S500000x1_S500000x128_1_0_n_n_0_1_1128 (W8 m ρ c (Proc.devRef .tc main_v40))
        (pairStarts (pairSources (m ((c : Thread nD τ).loc main_arg2)))) :=
  (show W9 m ρ c (Proc.devRef .tc main_v51)
      = Host.gather gather_S100000x128_S500000x1_S500000x128_1_0_n_n_0_1_1128 (W8 m ρ c (Proc.devRef .tc main_v40))
          (pairStarts (pairSources (W8 m ρ c (Proc.devRef .tc main_arg2)))) by
    after_results; rfl).trans (by rw [arg2_at8 m ρ c])
/-- And at their second endpoints. -/
theorem targets_rows : W9 m ρ c (Proc.devRef .tc main_v58)
    = Host.gather gather_S100000x128_S500000x1_S500000x128_1_0_n_n_0_1_1128 (W8 m ρ c (Proc.devRef .tc main_v40))
        (pairStarts (pairTargets (m ((c : Thread nD τ).loc main_arg2)))) :=
  (show W9 m ρ c (Proc.devRef .tc main_v58)
      = Host.gather gather_S100000x128_S500000x1_S500000x128_1_0_n_n_0_1_1128 (W8 m ρ c (Proc.devRef .tc main_v40))
          (pairStarts (pairTargets (W8 m ρ c (Proc.devRef .tc main_arg2)))) by
    after_results_simp; rfl).trans (by rw [arg2_at8 m ρ c])

/-- The scorer's first weight matrix, rows 0–127 … -/
theorem weight_top : W9 m ρ c (Proc.devRef .tc main_v59)
    = extractStridedSlice S128x128 ![0, 0] (m ((c : Thread nD τ).loc main_arg7)) slices_S256x128_S128x128_0_0 :=
  (show W9 m ρ c (Proc.devRef .tc main_v59)
      = extractStridedSlice S128x128 ![0, 0] (W8 m ρ c (Proc.devRef .tc main_arg7)) slices_S256x128_S128x128_0_0 by
    after_results).trans (by rw [arg7_at8 m ρ c])
/-- … and rows 128–255. -/
theorem weight_bottom : W9 m ρ c (Proc.devRef .tc main_v60)
    = extractStridedSlice S128x128 ![128, 0] (m ((c : Thread nD τ).loc main_arg7)) slices_S256x128_S128x128_128_0 :=
  (show W9 m ρ c (Proc.devRef .tc main_v60)
      = extractStridedSlice S128x128 ![128, 0] (W8 m ρ c (Proc.devRef .tc main_arg7)) slices_S256x128_S128x128_128_0 by
    after_results).trans (by rw [arg7_at8 m ρ c])
/-- The scorer's two biases as a row and as a single cell. -/
theorem scorer_bias1_row : W9 m ρ c (Proc.devRef .tc main_v61) = shapeCast S1x128 (m ((c : Thread nD τ).loc main_arg8)) shapeCasts_S128_S1x128 :=
  (show W9 m ρ c (Proc.devRef .tc main_v61) = shapeCast S1x128 (W8 m ρ c (Proc.devRef .tc main_arg8)) shapeCasts_S128_S1x128 by
    after_results; rfl).trans (by rw [arg8_at8 m ρ c])
theorem scorer_bias2_cell : W9 m ρ c (Proc.devRef .tc main_v62) = shapeCast S1x1 (m ((c : Thread nD τ).loc main_arg10)) shapeCasts_S1_S1x1 :=
  (show W9 m ρ c (Proc.devRef .tc main_v62) = shapeCast S1x1 (W8 m ρ c (Proc.devRef .tc main_arg10)) shapeCasts_S1_S1x1 by
    after_results; rfl).trans (by rw [arg10_at8 m ρ c])

/-- The result: the last region's output column laid out flat. -/
theorem result_flat : W11 m ρ c (Proc.devRef .tc main_v64)
    = shapeCast S500000 (W10 m ρ c (Proc.devRef .tc main_v63)) shapeCasts_S500000x1_S500000 := by
  after_results; rfl

end Cert.KernelIdeal.Fold

end
-- ==== Proof.GcnSpec.lean ====
/-
  What each of the kernel's four grid regions leaves in its output array, as one function of the arrays the region
  reads, index by index, over the extended reals.

  A node array has 100000 rows and 128 channels, a pair array 500000 rows; a per-node factor is a column
  `[100000, 1]`, a bias a row `[1, 128]`. Every function below is row-local: row `r` of the result depends on row `r` of
  the row-indexed operands and on the whole of the small ones, which is why a grid of row blocks computes it block
  by block.
-/
import Idealize.ShloMosaic.PureOps.Ideal
import Idealize.ShloMosaic.Lib.ValueIdx

noncomputable section

namespace Cert.GcnSpec

open Idealize.ShloMosaic Idealize.ShloMosaic.ValueIdx

/-- A rank-2 array of extended reals with literal extents. -/
abbrev Mat (r c : Nat) : Type := (⟨2, ![r, c]⟩ : Shape).Idx → EReal

/-- First layer's transform: the rows of `X` times `W`, row `r` then scaled by node `r`'s factor. -/
def linScaled (X : Mat 100000 128) (W : Mat 128 128) (D : Mat 100000 1) : Mat 100000 128 :=
  fun i => (∑ k : Fin 128, X (ix2 (i 0) k) * W (ix2 k (i 1))) * D (ix2 (i 0) 0)

/-- Second layer's transform: the aggregate `A` scaled by the node's factor, biased and clamped at zero (the first
    layer's activation), then times `W`, row `r` scaled by node `r`'s factor again. -/
def layer2Scaled (A : Mat 100000 128) (D : Mat 100000 1) (b : Mat 1 128) (W : Mat 128 128) : Mat 100000 128 :=
  fun i => (∑ k : Fin 128, max (A (ix2 (i 0) k) * D (ix2 (i 0) 0) + b (ix2 0 k)) 0 * W (ix2 k (i 1))) * D (ix2 (i 0) 0)

/-- The second layer's output: the aggregate scaled by the node's factor, plus the bias. -/
def postScaled (A : Mat 100000 128) (D : Mat 100000 1) (b : Mat 1 128) : Mat 100000 128 :=
  fun i => A i * D (ix2 (i 0) 0) + b (ix2 0 (i 1))

/-- The pair scorer: the two endpoint rows each times its half of the first weight matrix, summed, biased and clamped
    at zero, then times the second weight column, plus its bias. -/
def pairScore (Hs Hd : Mat 500000 128) (Wt Wb : Mat 128 128) (b1 : Mat 1 128) (w2 : Mat 128 1) (b2 : Mat 1 1) :
    Mat 500000 1 :=
  fun i => (∑ j : Fin 128, max ((∑ k : Fin 128, Hs (ix2 (i 0) k) * Wt (ix2 k j))
      + (∑ k : Fin 128, Hd (ix2 (i 0) k) * Wb (ix2 k j)) + b1 (ix2 0 j)) 0 * w2 (ix2 j 0)) + b2 (ix2 0 0)

end Cert.GcnSpec

end
-- ==== Proof.Region0Value.lean ====
/-
  The first grid region (the first layer's transform): from what one grid point writes back to what the whole
  output array holds.

  The region walks 20 row blocks of 5000 rows. At a point its body multiplies the feature block by the whole
  128-by-128 weight matrix (a product into a zero accumulator; over the extended reals the change of float format in
  front of it is the identity) and scales row `p` of the product by node `p`'s factor, a column spread over the 128
  channels. Entry `(p, q)` of the result therefore depends on row `p` of the features, on column `q` of the weights
  and on the factor of row `p`: block `t` of the result is block `t` of one function of the whole arrays, and the
  20 blocks tile the 100000 rows, hence the output array is that function.
-/
import proofs.«174276_j5016521801943_2_alg».proof.Proof.Gen.KernelIdeal.Frame
import proofs.«174276_j5016521801943_2_alg».proof.Proof.GcnSpec
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, however they are spelt. -/
theorem zeroOff : (![0, 0] : Fin 2 → Nat) = fun _ => 0 := funext fun a => by fin_cases a <;> rfl

/-- A column of per-row factors spread over the 128 channels reads, at row `p`, the factor of row `p`. -/
theorem spreadCol_apply (x : S5000x1.Idx → EReal) (h : S5000x1.Broadcasts S5000x128) (p : Fin 5000) (q : Fin 128) :
    broadcastTo S5000x128 x h (ix2 p q) = x (ix2 p 0) :=
  broadcastTo_apply x h (ix2 p q) (ix2 p 0) fun a => by
    match a with
    | ⟨0, _⟩ => rfl
    | ⟨1, _⟩ => rfl

/-- The body's matrix product: 5000 rows by 128 channels, contracted over the 128 input channels. -/
abbrev rowsTimesWeights : DotDims S5000x128 S128x128 S5000x128 := dot_S5000x128_S128x128_S5000x128_1_0_0_1_n_n

/-- The left operand is read at the result's row … -/
theorem lhs_row (j : S5000x128.Idx) (k : rowsTimesWeights.contr.Idx) : (rowsTimesWeights.lhsIdx j k 0).val = (j 0).val := by
  unfold DotDims.lhsIdx
  rw [dif_neg (show ¬(0 : Fin S5000x128.rank) ∈ rowsTimesWeights.lhsBatch by decide),
    dif_pos (show (0 : Fin S5000x128.rank) ∈ rowsTimesWeights.lhsNonContracting by decide)]
  rfl

/-- … and the right operand at the result's channel. -/
theorem rhs_col (j : S5000x128.Idx) (k : rowsTimesWeights.contr.Idx) : (rowsTimesWeights.rhsIdx j k 1).val = (j 1).val := by
  unfold DotDims.rhsIdx
  rw [dif_neg (show ¬(1 : Fin S128x128.rank) ∈ rowsTimesWeights.rhsBatch by decide),
    dif_pos (show (1 : Fin S128x128.rank) ∈ rowsTimesWeights.rhsNonContracting by decide)]
  rfl

/-- The product into a zero accumulator, at entry `(p, q)`: row `p` of the left operand against column `q` of the right
    one, summed over the 128 contracted channels (the contraction's one-axis index set is `Fin 128`). -/
theorem matmul_entry (l : FVec Ideal S5000x128 .bf16) (r : FVec Ideal S128x128 .bf16) (p : Fin 5000) (q : Fin 128) :
    matmul rowsTimesWeights none l r (constant (F := Ideal) S5000x128 .f32 0x00000000#32) (ix2 p q)
      = ∑ k : Fin 128, l (ix2 p k) * r (ix2 k q) := by
  refine (Ideal.matmul_constant_zero_apply rowsTimesWeights none l r (ix2 p q)).trans ?_
  rw [← Equiv.sum_comp (contrEquiv1 rowsTimesWeights 128 rfl rfl).symm]
  refine Finset.sum_congr rfl fun k _ => ?_
  have hk := contrEquiv1_symm_val rowsTimesWeights 128 rfl rfl k
  have el : rowsTimesWeights.lhsIdx (ix2 p q) ((contrEquiv1 rowsTimesWeights 128 rfl rfl).symm k) = ix2 p k :=
    funext fun a => Fin.ext (by
      match a with
      | ⟨0, _⟩ => exact lhs_row _ _
      | ⟨1, _⟩ => exact (rowsTimesWeights.lhsIdx_val_of_single rfl _ _).trans hk)
  have er : rowsTimesWeights.rhsIdx (ix2 p q) ((contrEquiv1 rowsTimesWeights 128 rfl rfl).symm k) = ix2 k q :=
    funext fun a => Fin.ext (by
      match a with
      | ⟨0, _⟩ => exact (rowsTimesWeights.rhsIdx_val_of_single rfl _ _).trans hk
      | ⟨1, _⟩ => exact rhs_col _ _)
  rw [el, er]

/-- What the body stores, entry by entry: row `p` of the feature block against column `q` of the weights, times row
    `p`'s factor. -/
theorem pay_apply (x0 : Vec Ideal S5000x128 .f32) (x1 : Vec Ideal S128x128 .f32) (x2 : Vec Ideal S5000x1 .f32)
    (p : Fin 5000) (q : Fin 128) :
    k0_pay1 (F := Ideal) x0 x1 x2 (ix2 p q) = (∑ k : Fin 128, x0 (ix2 p k) * x1 (ix2 k q)) * x2 (ix2 p 0) := by
  unfold k0_pay1
  simp only [shapeCast_self]
  show matmul rowsTimesWeights none (truncf .bf16 x0 bitsLt_bf16_f32) (truncf .bf16 x1 bitsLt_bf16_f32)
      (constant (F := Ideal) S5000x128 .f32 0x00000000#32) (ix2 p q) * broadcastTo S5000x128 x2 _ (ix2 p q) = _
  rw [spreadCol_apply, matmul_entry]
  rfl

/-- The printed index maps over the 20 grid points: point `t` takes block row `t` of every row-indexed array,
    and the one block of the weights. -/
theorem idx_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, q)` of point `t`'s blocks: the output's entry sits at row `5000 t + p`, channel `q` of its array; the
    feature row read is that row, the factor read is that row's, and the weights are read whole. -/
theorem block_entry (X : Cert.GcnSpec.Mat 100000 128) (W : Cert.GcnSpec.Mat 128 128) (D : Cert.GcnSpec.Mat 100000 1)
    (t : Fin cfg0.N) (p : Fin 5000) (q : Fin 128) :
    (∑ k : Fin 128, X (((cfg0.win 0).blk t).view.emb (ix2 p k)) * W (((cfg0.win 1).blk t).view.emb (ix2 k q)))
        * D (((cfg0.win 2).blk t).view.emb (ix2 p 0))
      = Cert.GcnSpec.linScaled X W D (((cfg0.win 3).blk t).view.emb (ix2 p q)) := by
  obtain ⟨e30, e31, e00, e01, e10, e11, e20, e21⟩ := idx_facts t
  have h0 : ∀ k : Fin 128, ((cfg0.win 0).blk t).view.emb (ix2 p k)
      = ix2 (n0 := 100000) (n1 := 128) ((((cfg0.win 3).blk t).view.emb (ix2 p q)) 0) k := fun k => by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have h1 : ∀ k : Fin 128, ((cfg0.win 1).blk t).view.emb (ix2 k q)
      = ix2 (n0 := 128) (n1 := 128) k ((((cfg0.win 3).blk t).view.emb (ix2 p q)) 1) := fun k => by
    funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have h2 : ((cfg0.win 2).blk t).view.emb (ix2 p 0)
      = ix2 (n0 := 100000) (n1 := 1) ((((cfg0.win 3).blk t).view.emb (ix2 p q)) 0) 0 := by
    funext a; apply Fin.ext
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega
  rw [h2]
  refine congrArg (· * _) (Finset.sum_congr rfl fun k _ => ?_)
  rw [h0 k, h1 k]

/-- What grid point `t` writes back is block `t` of the scaled product. -/
theorem flushed_eq (c : Dev nD) (t : Fin cfg0.N) :
    (dat0 V c).flushed 3 t = ((cfg0.win 3).blk t).view.read (Elt Ideal)
      (Cert.GcnSpec.linScaled (V c main_arg0) (V c main_arg3) (V c main_v15)) := by
  show (cfg0.win 3).cut (grid0.coords t) ((dat0 V c).after 3 t) = _
  rw [after0_3]
  unfold out0_3
  rw [View.canon_unit_zero zeroOff]
  simp only [View.ld_unit_zero (S := S5000x128) zeroOff, View.ld_unit_zero (S := S128x128) zeroOff,
    View.ld_unit_zero (S := S5000x1) zeroOff]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = Cert.GcnSpec.linScaled (V c main_arg0) (V c main_arg3) (V c main_v15) (((cfg0.win 3).blk t).view.emb (ix2 p q))
  refine (pay_apply (iblk0 V c 0 t) (iblk0 V c 1 t) (iblk0 V c 2 t) p q).trans ?_
  exact block_entry (V c main_arg0) (V c main_arg3) (V c main_v15) t p q

/-- An index of the array lies in point `t`'s block exactly when each coordinate lies in the block's range. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Row `r` of the array is written back by grid point `r / 5000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨e30, e31, -⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e31]; omega

/-- After all 20 write-backs the output array is the scaled product, whatever the region found in its buffers. -/
theorem final (c : Dev nD) : (dat0 (F := Ideal) V c).arrAt 3 cfg0.N
    = Cert.GcnSpec.linScaled (V c main_arg0) (V c main_arg3) (V c main_v15) :=
  (dat0 V c).arrAt_eq_of_cover 3 (Cert.GcnSpec.linScaled (V c main_arg0) (V c main_arg3) (V c main_v15))
    (fun t _ => flushed_eq V c t) cover

end Cert.KernelIdeal.Region0

end
-- ==== Proof.Region1Value.lean ====
/-
  The second grid region (the second layer's transform): from what one grid point writes back to what the whole
  output array holds.

  The region walks 20 row blocks of 5000 rows. At a point its body first finishes the first layer on its block — the
  aggregate scaled row by row by the per-node factor, plus the bias, clamped at zero —, multiplies that by the whole
  128-by-128 weight matrix (into a zero accumulator; over the extended reals the change of float format in front of
  the product is the identity and the zero word is the number zero) and scales row `p` of the product by node
  `p`'s factor once more. Entry `(p, q)` of the result depends on row `p` of the aggregate, on the factor of row
  `p`, on the whole bias and on column `q` of the weights: block `t` of the result is block `t` of one function
  of the whole arrays, and the 20 blocks tile the 100000 rows, hence the output array is that function.
-/
import proofs.«174276_j5016521801943_2_alg».proof.Proof.Gen.KernelIdeal.Frame
import proofs.«174276_j5016521801943_2_alg».proof.Proof.GcnSpec
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, however they are spelt. -/
theorem zeroOff : (![0, 0] : Fin 2 → Nat) = fun _ => 0 := funext fun a => by fin_cases a <;> rfl

/-- A column of per-row factors spread over the 128 channels reads, at row `p`, the factor of row `p`. -/
theorem spreadCol_apply (x : S5000x1.Idx → EReal) (h : S5000x1.Broadcasts S5000x128) (p : Fin 5000) (q : Fin 128) :
    broadcastTo S5000x128 x h (ix2 p q) = x (ix2 p 0) :=
  broadcastTo_apply x h (ix2 p q) (ix2 p 0) fun a => by
    match a with
    | ⟨0, _⟩ => rfl
    | ⟨1, _⟩ => rfl

/-- A row of per-channel terms spread over the 5000 rows reads, at channel `q`, the term of channel `q`. -/
theorem spreadRow_apply (x : S1x128.Idx → EReal) (h : S1x128.Broadcasts S5000x128) (p : Fin 5000) (q : Fin 128) :
    broadcastTo S5000x128 x h (ix2 p q) = x (ix2 0 q) :=
  broadcastTo_apply x h (ix2 p q) (ix2 0 q) fun a => by
    match a with
    | ⟨0, _⟩ => rfl
    | ⟨1, _⟩ => rfl

/-- The body's matrix product: 5000 rows by 128 channels, contracted over the 128 input channels. -/
abbrev rowsTimesWeights : DotDims S5000x128 S128x128 S5000x128 := dot_S5000x128_S128x128_S5000x128_1_0_0_1_n_n

/-- The left operand is read at the result's row … -/
theorem lhs_row (j : S5000x128.Idx) (k : rowsTimesWeights.contr.Idx) : (rowsTimesWeights.lhsIdx j k 0).val = (j 0).val := by
  unfold DotDims.lhsIdx
  rw [dif_neg (show ¬(0 : Fin S5000x128.rank) ∈ rowsTimesWeights.lhsBatch by decide),
    dif_pos (show (0 : Fin S5000x128.rank) ∈ rowsTimesWeights.lhsNonContracting by decide)]
  rfl

/-- … and the right operand at the result's channel. -/
theorem rhs_col (j : S5000x128.Idx) (k : rowsTimesWeights.contr.Idx) : (rowsTimesWeights.rhsIdx j k 1).val = (j 1).val := by
  unfold DotDims.rhsIdx
  rw [dif_neg (show ¬(1 : Fin S128x128.rank) ∈ rowsTimesWeights.rhsBatch by decide),
    dif_pos (show (1 : Fin S128x128.rank) ∈ rowsTimesWeights.rhsNonContracting by decide)]
  rfl

/-- The product into a zero accumulator, at entry `(p, q)`: row `p` of the left operand against column `q` of the right
    one, summed over the 128 contracted channels (the contraction's one-axis index set is `Fin 128`). -/
theorem matmul_entry (l : FVec Ideal S5000x128 .bf16) (r : FVec Ideal S128x128 .bf16) (p : Fin 5000) (q : Fin 128) :
    matmul rowsTimesWeights none l r (constant (F := Ideal) S5000x128 .f32 0x00000000#32) (ix2 p q)
      = ∑ k : Fin 128, l (ix2 p k) * r (ix2 k q) := by
  refine (Ideal.matmul_constant_zero_apply rowsTimesWeights none l r (ix2 p q)).trans ?_
  rw [← Equiv.sum_comp (contrEquiv1 rowsTimesWeights 128 rfl rfl).symm]
  refine Finset.sum_congr rfl fun k _ => ?_
  have hk := contrEquiv1_symm_val rowsTimesWeights 128 rfl rfl k
  have el : rowsTimesWeights.lhsIdx (ix2 p q) ((contrEquiv1 rowsTimesWeights 128 rfl rfl).symm k) = ix2 p k :=
    funext fun a => Fin.ext (by
      match a with
      | ⟨0, _⟩ => exact lhs_row _ _
      | ⟨1, _⟩ => exact (rowsTimesWeights.lhsIdx_val_of_single rfl _ _).trans hk)
  have er : rowsTimesWeights.rhsIdx (ix2 p q) ((contrEquiv1 rowsTimesWeights 128 rfl rfl).symm k) = ix2 k q :=
    funext fun a => Fin.ext (by
      match a with
      | ⟨0, _⟩ => exact (rowsTimesWeights.rhsIdx_val_of_single rfl _ _).trans hk
      | ⟨1, _⟩ => exact rhs_col _ _)
  rw [el, er]

/-- What the body stores, entry by entry: the first layer's activation of row `p` (the aggregate's entry times the
    row's factor, plus the channel's bias, clamped at zero) against column `q` of the weights, times row `p`'s factor. -/
theorem pay_apply (x0 : Vec Ideal S5000x128 .f32) (x1 : Vec Ideal S5000x1 .f32) (x2 : Vec Ideal S1x128 .f32)
    (x3 : Vec Ideal S128x128 .f32) (x4 : Vec Ideal S5000x1 .f32) (p : Fin 5000) (q : Fin 128) :
    k1_pay1 (F := Ideal) x0 x1 x2 x3 x4 (ix2 p q)
      = (∑ k : Fin 128, max (x0 (ix2 p k) * x1 (ix2 p 0) + x2 (ix2 0 k)) 0 * x3 (ix2 k q)) * x4 (ix2 p 0) := by
  unfold k1_pay1
  simp only [shapeCast_self]
  show matmul rowsTimesWeights none
        (truncf .bf16 (maximumf (addf (mulf x0 (broadcastTo S5000x128 x1 _)) (broadcastTo S5000x128 x2 _))
          (broadcast S5000x128 (Scalar.ofBits (F := Ideal) .f32 0x00000000#32))) bitsLt_bf16_f32)
        (truncf .bf16 x3 bitsLt_bf16_f32) (constant (F := Ideal) S5000x128 .f32 0x00000000#32) (ix2 p q)
      * broadcastTo S5000x128 x4 _ (ix2 p q) = _
  rw [spreadCol_apply, matmul_entry]
  refine congrArg (· * _) (Finset.sum_congr rfl fun k _ => ?_)
  show max (x0 (ix2 p k) * broadcastTo S5000x128 x1 _ (ix2 p k) + broadcastTo S5000x128 x2 _ (ix2 p k))
      (Ideal.ofBits .f32 0x00000000#32) * x3 (ix2 k q) = _
  rw [spreadCol_apply, spreadRow_apply, Ideal.ofBits_zero_f32]

/-- The printed index maps over the 20 grid points: point `t` takes block row `t` of every row-indexed array,
    and the one block of the bias and of the weights. -/
theorem idx_facts : ∀ t : Fin cfg1.N, win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Entry `(p, q)` of point `t`'s blocks: the output's entry sits at row `5000 t + p`, channel `q` of its array; the
    aggregate's row read is that row, the factor read is that row's, and the bias and the weights are read whole. -/
theorem block_entry (A : Cert.GcnSpec.Mat 100000 128) (D : Cert.GcnSpec.Mat 100000 1) (b : Cert.GcnSpec.Mat 1 128)
    (W : Cert.GcnSpec.Mat 128 128) (t : Fin cfg1.N) (p : Fin 5000) (q : Fin 128) :
    (∑ k : Fin 128, max (A (((cfg1.win 0).blk t).view.emb (ix2 p k)) * D (((cfg1.win 1).blk t).view.emb (ix2 p 0))
          + b (((cfg1.win 2).blk t).view.emb (ix2 0 k))) 0 * W (((cfg1.win 3).blk t).view.emb (ix2 k q)))
        * D (((cfg1.win 1).blk t).view.emb (ix2 p 0))
      = Cert.GcnSpec.layer2Scaled A D b W (((cfg1.win 4).blk t).view.emb (ix2 p q)) := by
  obtain ⟨e40, e41, e00, e01, e10, e11, e20, e21, e30, e31⟩ := idx_facts t
  have h0 : ∀ k : Fin 128, ((cfg1.win 0).blk t).view.emb (ix2 p k)
      = ix2 (n0 := 100000) (n1 := 128) ((((cfg1.win 4).blk t).view.emb (ix2 p q)) 0) k := fun k => by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * k.val = k.val; omega
  have h1 : ((cfg1.win 1).blk t).view.emb (ix2 p 0)
      = ix2 (n0 := 100000) (n1 := 1) ((((cfg1.win 4).blk t).view.emb (ix2 p q)) 0) 0 := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 1 + 1 * 0 = 0; omega
  have h2 : ∀ k : Fin 128, ((cfg1.win 2).blk t).view.emb (ix2 0 k) = ix2 (n0 := 1) (n1 := 128) 0 k := fun k => by
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have h3 : ∀ k : Fin 128, ((cfg1.win 3).blk t).view.emb (ix2 k q)
      = ix2 (n0 := 128) (n1 := 128) k ((((cfg1.win 4).blk t).view.emb (ix2 p q)) 1) := fun k => by
    funext a; apply Fin.ext
    match a with
    | ⟨0, _⟩ => show win1_3.index t (0 : Fin 2) * 128 + 1 * k.val = k.val; omega
    | ⟨1, _⟩ => show win1_3.index t (1 : Fin 2) * 128 + 1 * q.val = win1_4.index t (1 : Fin 2) * 128 + 1 * q.val; omega
  rw [h1]
  refine congrArg (· * _) (Finset.sum_congr rfl fun k _ => ?_)
  rw [h0 k, h2 k, h3 k]

/-- What grid point `t` writes back is block `t` of the second layer's scaled transform. -/
theorem flushed_eq (c : Dev nD) (t : Fin cfg1.N) :
    (dat1 V c).flushed 4 t = ((cfg1.win 4).blk t).view.read (Elt Ideal)
      (Cert.GcnSpec.layer2Scaled (V c main_v26) (V c main_v15) (V c main_v27) (V c main_arg5)) := by
  show (cfg1.win 4).cut (grid1.coords t) ((dat1 V c).after 4 t) = _
  rw [after1_4]
  unfold out1_4
  rw [View.canon_unit_zero zeroOff]
  simp only [View.ld_unit_zero (S := S5000x128) zeroOff, View.ld_unit_zero (S := S5000x1) zeroOff,
    View.ld_unit_zero (S := S1x128) zeroOff, View.ld_unit_zero (S := S128x128) zeroOff]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 1 t) (ix2 p q)
    = Cert.GcnSpec.layer2Scaled (V c main_v26) (V c main_v15) (V c main_v27) (V c main_arg5)
        (((cfg1.win 4).blk t).view.emb (ix2 p q))
  refine (pay_apply (iblk1 V c 0 t) (iblk1 V c 1 t) (iblk1 V c 2 t) (iblk1 V c 3 t) (iblk1 V c 1 t) p q).trans ?_
  exact block_entry (V c main_v26) (V c main_v15) (V c main_v27) (V c main_arg5) t p q

/-- An index of the array lies in point `t`'s block exactly when each coordinate lies in the block's range. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v28).slice (win1_4.rect t)).set ↔ _
  rw [View.set_slice_whole, Rect.mem_set_unit]
  exact Iff.rfl

/-- Row `r` of the array is written back by grid point `r / 5000`. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨e40, e41, -⟩ := idx_facts ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e41]; omega

/-- After all 20 write-backs the output array is the second layer's scaled transform, whatever the region found in
    its buffers. -/
theorem final (c : Dev nD) : (dat1 (F := Ideal) V c).arrAt 4 cfg1.N
    = Cert.GcnSpec.layer2Scaled (V c main_v26) (V c main_v15) (V c main_v27) (V c main_arg5) :=
  (dat1 V c).arrAt_eq_of_cover 4
    (Cert.GcnSpec.layer2Scaled (V c main_v26) (V c main_v15) (V c main_v27) (V c main_arg5))
    (fun t _ => flushed_eq V c t) cover

end Cert.KernelIdeal.Region1

end
-- ==== Proof.Region2Value.lean ====
/-
  The third grid region (the second layer's output): from what one grid point writes back to what the whole
  output array holds.

  The region walks 20 row blocks of 5000 rows. At a point its body multiplies the aggregate's block, row by row,
  by that row's per-node factor (a column spread over the 128 channels) and adds the bias (a row spread over the
  5000 rows). Every entry of the result depends on the same entry of the aggregate, on the factor of its own row and
  on the bias of its own channel, so block `t` of the result is block `t` of one function of the whole arrays;
  the 20 blocks tile the 100000 rows, hence the output array is that function.
-/
import proofs.«174276_j5016521801943_2_alg».proof.Proof.Gen.KernelIdeal.Frame
import proofs.«174276_j5016521801943_2_alg».proof.Proof.GcnSpec
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, however they are spelt. -/
theorem zeroOff : (![0, 0] : Fin 2 → Nat) = fun _ => 0 := funext fun a => by fin_cases a <;> rfl

/-- A column of per-row factors spread over the 128 channels reads, at row `p`, the factor of row `p`. -/
theorem spreadCol_apply (x : S5000x1.Idx → EReal) (h : S5000x1.Broadcasts S5000x128) (p : Fin 5000) (q : Fin 128) :
    broadcastTo S5000x128 x h (ix2 p q) = x (ix2 p 0) :=
  broadcastTo_apply x h (ix2 p q) (ix2 p 0) fun a => by
    match a with
    | ⟨0, _⟩ => rfl
    | ⟨1, _⟩ => rfl

/-- A row of per-channel terms spread over the 5000 rows reads, at channel `q`, the term of channel `q`. -/
theorem spreadRow_apply (x : S1x128.Idx → EReal) (h : S1x128.Broadcasts S5000x128) (p : Fin 5000) (q : Fin 128) :
    broadcastTo S5000x128 x h (ix2 p q) = x (ix2 0 q) :=
  broadcastTo_apply x h (ix2 p q) (ix2 0 q) fun a => by
    match a with
    | ⟨0, _⟩ => rfl
    | ⟨1, _⟩ => rfl

/-- What the body stores, entry by entry: the aggregate's entry times its row's factor, plus its channel's bias. -/
theorem pay_apply (x0 : Vec Ideal S5000x128 .f32) (x1 : Vec Ideal S5000x1 .f32) (x2 : Vec Ideal S1x128 .f32)
    (p : Fin 5000) (q : Fin 128) :
    k2_pay1 (F := Ideal) x0 x1 x2 (ix2 p q) = x0 (ix2 p q) * x1 (ix2 p 0) + x2 (ix2 0 q) := by
  unfold k2_pay1
  simp only [shapeCast_self]
  show x0 (ix2 p q) * broadcastTo S5000x128 x1 _ (ix2 p q) + broadcastTo S5000x128 x2 _ (ix2 p q) = _
  rw [spreadCol_apply, spreadRow_apply]

/-- The printed index maps over the 20 grid points: point `t` takes block row `t` of every row-indexed array,
    and the one block of the bias. -/
theorem idx_facts : ∀ t : Fin cfg2.N, win2_3.index t (0 : Fin 2) = t.val ∧ win2_3.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

/-- Entry `(p, q)` of point `t`'s blocks: the aggregate's and the output's blocks sit at the same place of their arrays
    (row `5000 t + p`, channel `q`), the factor read is that row's, the bias read is that channel's. -/
theorem block_entry (A : Cert.GcnSpec.Mat 100000 128) (D : Cert.GcnSpec.Mat 100000 1) (b : Cert.GcnSpec.Mat 1 128)
    (t : Fin cfg2.N) (p : Fin 5000) (q : Fin 128) :
    A (((cfg2.win 0).blk t).view.emb (ix2 p q)) * D (((cfg2.win 1).blk t).view.emb (ix2 p 0))
        + b (((cfg2.win 2).blk t).view.emb (ix2 0 q))
      = Cert.GcnSpec.postScaled A D b (((cfg2.win 3).blk t).view.emb (ix2 p q)) := by
  obtain ⟨e30, e31, e00, e01, e10, e11, e20, e21⟩ := idx_facts t
  have h0 : ((cfg2.win 0).blk t).view.emb (ix2 p q) = ((cfg2.win 3).blk t).view.emb (ix2 p q) := by
    funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * q.val = win2_3.index t (1 : Fin 2) * 128 + 1 * q.val; omega
  have h1 : ((cfg2.win 1).blk t).view.emb (ix2 p 0)
      = ix2 (n0 := 100000) (n1 := 1) ((((cfg2.win 3).blk t).view.emb (ix2 p q)) 0) 0 := by
    funext a; apply Fin.ext
    match a with
    | ⟨0, _⟩ => show win2_1.index t (0 : Fin 2) * 5000 + 1 * p.val = win2_3.index t (0 : Fin 2) * 5000 + 1 * p.val; omega
    | ⟨1, _⟩ => show win2_1.index t (1 : Fin 2) * 1 + 1 * 0 = 0; omega
  have h2 : ((cfg2.win 2).blk t).view.emb (ix2 0 q)
      = ix2 (n0 := 1) (n1 := 128) 0 ((((cfg2.win 3).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega
  rw [h0, h1, h2]
  rfl

/-- What grid point `t` writes back is block `t` of the scaled-and-biased aggregate. -/
theorem flushed_eq (c : Dev nD) (t : Fin cfg2.N) :
    (dat2 V c).flushed 3 t = ((cfg2.win 3).blk t).view.read (Elt Ideal)
      (Cert.GcnSpec.postScaled (V c main_v38) (V c main_v15) (V c main_v39)) := by
  show (cfg2.win 3).cut (grid2.coords t) ((dat2 V c).after 3 t) = _
  rw [after2_3]
  unfold out2_3
  rw [View.canon_unit_zero zeroOff]
  simp only [View.ld_unit_zero (S := S5000x128) zeroOff, View.ld_unit_zero (S := S5000x1) zeroOff,
    View.ld_unit_zero (S := S1x128) zeroOff]
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (ix2 p q)
    = Cert.GcnSpec.postScaled (V c main_v38) (V c main_v15) (V c main_v39) (((cfg2.win 3).blk t).view.emb (ix2 p q))
  refine (pay_apply (iblk2 V c 0 t) (iblk2 V c 1 t) (iblk2 V c 2 t) p q).trans ?_
  exact block_entry (V c main_v38) (V c main_v15) (V c main_v39) t p q
/-- An index of the array lies in point `t`'s block exactly when each coordinate lies in the block's range. -/
theorem mem_blk (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v40).slice (win2_3.rect t)).set ↔ _
  rw [View.set_slice_whole, Rect.mem_set_unit]
  exact Iff.rfl

/-- Row `r` of the array is written back by grid point `r / 5000`. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨e30, e31, -⟩ := idx_facts ⟨(i 0).val / 5000, ht⟩
  refine ⟨⟨(i 0).val / 5000, ht⟩, flush2_3 _, ?_⟩
  rw [mem_blk]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win2_3.index ⟨(i 0).val / 5000, ht⟩ (1 : Fin 2) * 128 ≤ (i 1).val
      ∧ (i 1).val < win2_3.index ⟨(i 0).val / 5000, ht⟩ (1 : Fin 2) * 128 + 128
    rw [e31]; omega

/-- After all 20 write-backs the output array is the scaled-and-biased aggregate, whatever the region found in its
    buffers. -/
theorem final (c : Dev nD) : (dat2 (F := Ideal) V c).arrAt 3 cfg2.N
    = Cert.GcnSpec.postScaled (V c main_v38) (V c main_v15) (V c main_v39) :=
  (dat2 V c).arrAt_eq_of_cover 3 (Cert.GcnSpec.postScaled (V c main_v38) (V c main_v15) (V c main_v39))
    (fun t _ => flushed_eq V c t) cover

end Cert.KernelIdeal.Region2

end
-- ==== Proof.Region3Value.lean ====
/-
  The fourth grid region (the pair scorer): from what one grid point writes back to what the whole output array
  holds.

  The region walks 100 row blocks of 5000 pairs. At a point its body multiplies the block of source-endpoint rows by
  the top weight matrix and the block of destination-endpoint rows by the bottom one (each product into a zero
  accumulator), adds the two, adds the hidden bias (a row spread over the 5000 rows) and clamps at zero; that hidden
  block is multiplied by the one output column and the one-entry output bias is added. Over the extended reals each
  change of float format in front of a product is the identity and the zero word is the number zero. Row `p` of
  the result depends on row `p` of the two endpoint arrays and on the whole of the weights and biases: block `t`
  of the result is block `t` of one function of the whole arrays, and the 100 blocks tile the 500000 rows, hence
  the output array is that function.
-/
import proofs.«174276_j5016521801943_2_alg».proof.Proof.Gen.KernelIdeal.Frame
import proofs.«174276_j5016521801943_2_alg».proof.Proof.GcnSpec
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, however they are spelt. -/
theorem zeroOff : (![0, 0] : Fin 2 → Nat) = fun _ => 0 := funext fun a => by fin_cases a <;> rfl

/-- A row of per-channel terms spread over the 5000 rows reads, at channel `q`, the term of channel `q`. -/
theorem spreadRow_apply (x : S1x128.Idx → EReal) (h : S1x128.Broadcasts S5000x128) (p : Fin 5000) (q : Fin 128) :
    broadcastTo S5000x128 x h (ix2 p q) = x (ix2 0 q) :=
  broadcastTo_apply x h (ix2 p q) (ix2 0 q) fun a => by
    match a with
    | ⟨0, _⟩ => rfl
    | ⟨1, _⟩ => rfl

/-- The body's matrix product: 5000 rows by 128 channels, contracted over the 128 input channels. -/
abbrev rowsTimesWeights : DotDims S5000x128 S128x128 S5000x128 := dot_S5000x128_S128x128_S5000x128_1_0_0_1_n_n

/-- The left operand is read at the result's row … -/
theorem lhs_row (j : S5000x128.Idx) (k : rowsTimesWeights.contr.Idx) : (rowsTimesWeights.lhsIdx j k 0).val = (j 0).val := by
  unfold DotDims.lhsIdx
  rw [dif_neg (show ¬(0 : Fin S5000x128.rank) ∈ rowsTimesWeights.lhsBatch by decide),
    dif_pos (show (0 : Fin S5000x128.rank) ∈ rowsTimesWeights.lhsNonContracting by decide)]
  rfl

/-- … and the right operand at the result's channel. -/
theorem rhs_col (j : S5000x128.Idx) (k : rowsTimesWeights.contr.Idx) : (rowsTimesWeights.rhsIdx j k 1).val = (j 1).val := by
  unfold DotDims.rhsIdx
  rw [dif_neg (show ¬(1 : Fin S128x128.rank) ∈ rowsTimesWeights.rhsBatch by decide),
    dif_pos (show (1 : Fin S128x128.rank) ∈ rowsTimesWeights.rhsNonContracting by decide)]
  rfl

/-- The product into a zero accumulator, at entry `(p, q)`: row `p` of the left operand against column `q` of the right
    one, summed over the 128 contracted channels (the contraction's one-axis index set is `Fin 128`). -/
theorem matmul_entry (l : FVec Ideal S5000x128 .bf16) (r : FVec Ideal S128x128 .bf16) (p : Fin 5000) (q : Fin 128) :
    matmul rowsTimesWeights none l r (constant (F := Ideal) S5000x128 .f32 0x00000000#32) (ix2 p q)
      = ∑ k : Fin 128, l (ix2 p k) * r (ix2 k q) := by
  refine (Ideal.matmul_constant_zero_apply rowsTimesWeights none l r (ix2 p q)).trans ?_
  rw [← Equiv.sum_comp (contrEquiv1 rowsTimesWeights 128 rfl rfl).symm]
  refine Finset.sum_congr rfl fun k _ => ?_
  have hk := contrEquiv1_symm_val rowsTimesWeights 128 rfl rfl k
  have el : rowsTimesWeights.lhsIdx (ix2 p q) ((contrEquiv1 rowsTimesWeights 128 rfl rfl).symm k) = ix2 p k :=
    funext fun a => Fin.ext (by
      match a with
      | ⟨0, _⟩ => exact lhs_row _ _
      | ⟨1, _⟩ => exact (rowsTimesWeights.lhsIdx_val_of_single rfl _ _).trans hk)
  have er : rowsTimesWeights.rhsIdx (ix2 p q) ((contrEquiv1 rowsTimesWeights 128 rfl rfl).symm k) = ix2 k q :=
    funext fun a => Fin.ext (by
      match a with
      | ⟨0, _⟩ => exact (rowsTimesWeights.rhsIdx_val_of_single rfl _ _).trans hk
      | ⟨1, _⟩ => exact rhs_col _ _)
  rw [el, er]

/-- The body's second product: 5000 rows of 128 hidden channels against the one output column. -/
abbrev rowsTimesColumn : DotDims S5000x128 S128x1 S5000x1 := dot_S5000x128_S128x1_S5000x1_1_0_0_1_n_n

/-- Its left operand is read at the result's row … -/
theorem lhs_row' (j : S5000x1.Idx) (k : rowsTimesColumn.contr.Idx) : (rowsTimesColumn.lhsIdx j k 0).val = (j 0).val := by
  unfold DotDims.lhsIdx
  rw [dif_neg (show ¬(0 : Fin S5000x128.rank) ∈ rowsTimesColumn.lhsBatch by decide),
    dif_pos (show (0 : Fin S5000x128.rank) ∈ rowsTimesColumn.lhsNonContracting by decide)]
  rfl

/-- … and its right operand at the result's (only) column. -/
theorem rhs_col' (j : S5000x1.Idx) (k : rowsTimesColumn.contr.Idx) : (rowsTimesColumn.rhsIdx j k 1).val = (j 1).val := by
  unfold DotDims.rhsIdx
  rw [dif_neg (show ¬(1 : Fin S128x1.rank) ∈ rowsTimesColumn.rhsBatch by decide),
    dif_pos (show (1 : Fin S128x1.rank) ∈ rowsTimesColumn.rhsNonContracting by decide)]
  rfl

/-- The second product into a zero accumulator, at row `p`: row `p` of the left operand against the column, summed
    over the 128 hidden channels. -/
theorem matmul_entry' (l : FVec Ideal S5000x128 .bf16) (r : FVec Ideal S128x1 .bf16) (p : Fin 5000) (z : Fin 1) :
    matmul rowsTimesColumn none l r (constant (F := Ideal) S5000x1 .f32 0x00000000#32) (ix2 p z)
      = ∑ k : Fin 128, l (ix2 p k) * r (ix2 k z) := by
  refine (Ideal.matmul_constant_zero_apply rowsTimesColumn none l r (ix2 p z)).trans ?_
  rw [← Equiv.sum_comp (contrEquiv1 rowsTimesColumn 128 rfl rfl).symm]
  refine Finset.sum_congr rfl fun k _ => ?_
  have hk := contrEquiv1_symm_val rowsTimesColumn 128 rfl rfl k
  have el : rowsTimesColumn.lhsIdx (ix2 p z) ((contrEquiv1 rowsTimesColumn 128 rfl rfl).symm k) = ix2 p k :=
    funext fun a => Fin.ext (by
      match a with
      | ⟨0, _⟩ => exact lhs_row' _ _
      | ⟨1, _⟩ => exact (rowsTimesColumn.lhsIdx_val_of_single rfl _ _).trans hk)
  have er : rowsTimesColumn.rhsIdx (ix2 p z) ((contrEquiv1 rowsTimesColumn 128 rfl rfl).symm k) = ix2 k z :=
    funext fun a => Fin.ext (by
      match a with
      | ⟨0, _⟩ => exact (rowsTimesColumn.rhsIdx_val_of_single rfl _ _).trans hk
      | ⟨1, _⟩ => exact rhs_col' _ _)
  rw [el, er]

/-- The one-entry output bias spread over the 5000 rows reads that entry everywhere. -/
theorem spreadOne_apply (x : S1x1.Idx → EReal) (h : S1x1.Broadcasts S5000x1) (p : Fin 5000) (z : Fin 1) :
    broadcastTo S5000x1 x h (ix2 p z) = x (ix2 0 0) :=
  broadcastTo_apply x h (ix2 p z) (ix2 0 0) fun a => by
    match a with
    | ⟨0, _⟩ => rfl
    | ⟨1, _⟩ => rfl

/-- What the body stores, row by row: the two endpoint rows each against its weight matrix, added, biased and clamped
    at zero — the hidden row —, then against the output column, plus the output bias. -/
theorem pay_apply (x0 x1 : Vec Ideal S5000x128 .f32) (x2 x3 : Vec Ideal S128x128 .f32) (x4 : Vec Ideal S1x128 .f32)
    (x5 : Vec Ideal S128x1 .f32) (x6 : Vec Ideal S1x1 .f32) (p : Fin 5000) (z : Fin 1) :
    k3_pay1 (F := Ideal) x0 x1 x2 x3 x4 x5 x6 (ix2 p z)
      = (∑ j : Fin 128, max ((∑ k : Fin 128, x0 (ix2 p k) * x2 (ix2 k j))
          + (∑ k : Fin 128, x1 (ix2 p k) * x3 (ix2 k j)) + x4 (ix2 0 j)) 0 * x5 (ix2 j z)) + x6 (ix2 0 0) := by
  unfold k3_pay1
  simp only [shapeCast_self]
  show matmul rowsTimesColumn none
        (truncf .bf16 (maximumf (addf (addf
            (matmul rowsTimesWeights none (truncf .bf16 x0 bitsLt_bf16_f32) (truncf .bf16 x2 bitsLt_bf16_f32)
              (constant (F := Ideal) S5000x128 .f32 0x00000000#32))
            (matmul rowsTimesWeights none (truncf .bf16 x1 bitsLt_bf16_f32) (truncf .bf16 x3 bitsLt_bf16_f32)
              (constant (F := Ideal) S5000x128 .f32 0x00000000#32)))
            (broadcastTo S5000x128 x4 _))
          (broadcast S5000x128 (Scalar.ofBits (F := Ideal) .f32 0x00000000#32))) bitsLt_bf16_f32)
        (truncf .bf16 x5 bitsLt_bf16_f32) (constant (F := Ideal) S5000x1 .f32 0x00000000#32) (ix2 p z)
      + broadcastTo S5000x1 x6 _ (ix2 p z) = _
  rw [spreadOne_apply, matmul_entry']
  refine congrArg (· + _) (Finset.sum_congr rfl fun j _ => ?_)
  show max (matmul rowsTimesWeights none (truncf .bf16 x0 bitsLt_bf16_f32) (truncf .bf16 x2 bitsLt_bf16_f32)
          (constant (F := Ideal) S5000x128 .f32 0x00000000#32) (ix2 p j)
        + matmul rowsTimesWeights none (truncf .bf16 x1 bitsLt_bf16_f32) (truncf .bf16 x3 bitsLt_bf16_f32)
          (constant (F := Ideal) S5000x128 .f32 0x00000000#32) (ix2 p j)
        + broadcastTo S5000x128 x4 _ (ix2 p j))
      (Ideal.ofBits .f32 0x00000000#32) * x5 (ix2 j z) = _
  rw [matmul_entry, matmul_entry, spreadRow_apply, Ideal.ofBits_zero_f32]
  rfl

/-- The printed index maps over the 100 grid points: point `t` takes block row `t` of the two endpoint arrays and of
    the output, and the one block of each weight and bias. -/
theorem idx_facts : ∀ t : Fin cfg3.N, win3_7.index t (0 : Fin 2) = t.val ∧ win3_7.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- Row `p` of point `t`'s blocks: the output's entry sits at row `5000 t + p` of its array, the two endpoint rows read
    are that row of their arrays, and the weights and biases are read whole. -/
theorem block_entry (Hs Hd : Cert.GcnSpec.Mat 500000 128) (Wt Wb : Cert.GcnSpec.Mat 128 128)
    (b1 : Cert.GcnSpec.Mat 1 128) (w2 : Cert.GcnSpec.Mat 128 1) (b2 : Cert.GcnSpec.Mat 1 1)
    (t : Fin cfg3.N) (p : Fin 5000) :
    (∑ j : Fin 128, max ((∑ k : Fin 128, Hs (((cfg3.win 0).blk t).view.emb (ix2 p k)) * Wt (((cfg3.win 2).blk t).view.emb (ix2 k j)))
          + (∑ k : Fin 128, Hd (((cfg3.win 1).blk t).view.emb (ix2 p k)) * Wb (((cfg3.win 3).blk t).view.emb (ix2 k j)))
          + b1 (((cfg3.win 4).blk t).view.emb (ix2 0 j))) 0 * w2 (((cfg3.win 5).blk t).view.emb (ix2 j 0)))
        + b2 (((cfg3.win 6).blk t).view.emb (ix2 0 0))
      = Cert.GcnSpec.pairScore Hs Hd Wt Wb b1 w2 b2 (((cfg3.win 7).blk t).view.emb (ix2 p 0)) := by
  obtain ⟨e70, e71, e00, e01, e10, e11, e20, e21, e30, e31, e40, e41, e50, e51, e60, e61⟩ := idx_facts t
  have h0 : ∀ k : Fin 128, ((cfg3.win 0).blk t).view.emb (ix2 p k)
      = ix2 (n0 := 500000) (n1 := 128) ((((cfg3.win 7).blk t).view.emb (ix2 p 0)) 0) k := fun k => by
    funext a; apply Fin.ext
    match a with
    | ⟨0, _⟩ => show win3_0.index t (0 : Fin 2) * 5000 + 1 * p.val = win3_7.index t (0 : Fin 2) * 5000 + 1 * p.val; omega
    | ⟨1, _⟩ => show win3_0.index t (1 : Fin 2) * 128 + 1 * k.val = k.val; omega
  have h1 : ∀ k : Fin 128, ((cfg3.win 1).blk t).view.emb (ix2 p k)
      = ix2 (n0 := 500000) (n1 := 128) ((((cfg3.win 7).blk t).view.emb (ix2 p 0)) 0) k := fun k => by
    funext a; apply Fin.ext
    match a with
    | ⟨0, _⟩ => show win3_1.index t (0 : Fin 2) * 5000 + 1 * p.val = win3_7.index t (0 : Fin 2) * 5000 + 1 * p.val; omega
    | ⟨1, _⟩ => show win3_1.index t (1 : Fin 2) * 128 + 1 * k.val = k.val; omega
  have h2 : ∀ k j : Fin 128, ((cfg3.win 2).blk t).view.emb (ix2 k j) = ix2 (n0 := 128) (n1 := 128) k j := fun k j => by
    funext a; apply Fin.ext
    match a with
    | ⟨0, _⟩ => show win3_2.index t (0 : Fin 2) * 128 + 1 * k.val = k.val; omega
    | ⟨1, _⟩ => show win3_2.index t (1 : Fin 2) * 128 + 1 * j.val = j.val; omega
  have h3 : ∀ k j : Fin 128, ((cfg3.win 3).blk t).view.emb (ix2 k j) = ix2 (n0 := 128) (n1 := 128) k j := fun k j => by
    funext a; apply Fin.ext
    match a with
    | ⟨0, _⟩ => show win3_3.index t (0 : Fin 2) * 128 + 1 * k.val = k.val; omega
    | ⟨1, _⟩ => show win3_3.index t (1 : Fin 2) * 128 + 1 * j.val = j.val; omega
  have h4 : ∀ j : Fin 128, ((cfg3.win 4).blk t).view.emb (ix2 0 j) = ix2 (n0 := 1) (n1 := 128) 0 j := fun j => by
    funext a; apply Fin.ext
    match a with
    | ⟨0, _⟩ => show win3_4.index t (0 : Fin 2) * 1 + 1 * 0 = 0; omega
    | ⟨1, _⟩ => show win3_4.index t (1 : Fin 2) * 128 + 1 * j.val = j.val; omega
  have h5 : ∀ j : Fin 128, ((cfg3.win 5).blk t).view.emb (ix2 j 0) = ix2 (n0 := 128) (n1 := 1) j 0 := fun j => by
    funext a; apply Fin.ext
    match a with
    | ⟨0, _⟩ => show win3_5.index t (0 : Fin 2) * 128 + 1 * j.val = j.val; omega
    | ⟨1, _⟩ => show win3_5.index t (1 : Fin 2) * 1 + 1 * 0 = 0; omega
  have h6 : ((cfg3.win 6).blk t).view.emb (ix2 0 0) = ix2 (n0 := 1) (n1 := 1) 0 0 := by
    funext a; apply Fin.ext
    match a with
    | ⟨0, _⟩ => show win3_6.index t (0 : Fin 2) * 1 + 1 * 0 = 0; omega
    | ⟨1, _⟩ => show win3_6.index t (1 : Fin 2) * 1 + 1 * 0 = 0; omega
  rw [h6]
  refine congrArg (· + _) (Finset.sum_congr rfl fun j _ => ?_)
  rw [h4 j, h5 j]
  refine congrArg (fun s => max (s + _) 0 * _) ?_
  refine congrArg₂ (· + ·) (Finset.sum_congr rfl fun k _ => ?_) (Finset.sum_congr rfl fun k _ => ?_)
  · rw [h0 k, h2 k j]
  · rw [h1 k, h3 k j]

/-- What grid point `t` writes back is block `t` of the pair scores. -/
theorem flushed_eq (c : Dev nD) (t : Fin cfg3.N) :
    (dat3 V c).flushed 7 t = ((cfg3.win 7).blk t).view.read (Elt Ideal)
      (Cert.GcnSpec.pairScore (V c main_v51) (V c main_v58) (V c main_v59) (V c main_v60) (V c main_v61)
        (V c main_arg9) (V c main_v62)) := by
  show (cfg3.win 7).cut (grid3.coords t) ((dat3 V c).after 7 t) = _
  rw [after3_7]
  unfold out3_7
  rw [View.canon_unit_zero zeroOff]
  simp only [View.ld_unit_zero (S := S5000x128) zeroOff, View.ld_unit_zero (S := S128x128) zeroOff,
    View.ld_unit_zero (S := S1x128) zeroOff, View.ld_unit_zero (S := S128x1) zeroOff,
    View.ld_unit_zero (S := S1x1) zeroOff]
  funext j
  obtain ⟨p, z, rfl⟩ : ∃ (p : Fin 5000) (z : Fin 1), j = ix2 p z := ⟨j 0, j 1, eq_ix2 j⟩
  obtain rfl : z = 0 := Subsingleton.elim _ _
  show k3_pay1 (F := Ideal) (iblk3 V c 0 t) (iblk3 V c 1 t) (iblk3 V c 2 t) (iblk3 V c 3 t) (iblk3 V c 4 t)
      (iblk3 V c 5 t) (iblk3 V c 6 t) (ix2 p 0)
    = Cert.GcnSpec.pairScore (V c main_v51) (V c main_v58) (V c main_v59) (V c main_v60) (V c main_v61)
        (V c main_arg9) (V c main_v62) (((cfg3.win 7).blk t).view.emb (ix2 p 0))
  refine (pay_apply (iblk3 V c 0 t) (iblk3 V c 1 t) (iblk3 V c 2 t) (iblk3 V c 3 t) (iblk3 V c 4 t)
    (iblk3 V c 5 t) (iblk3 V c 6 t) p 0).trans ?_
  exact block_entry (V c main_v51) (V c main_v58) (V c main_v59) (V c main_v60) (V c main_v61)
    (V c main_arg9) (V c main_v62) t p

/-- An index of the array lies in point `t`'s block exactly when each coordinate lies in the block's range. -/
theorem mem_blk (t : Fin cfg3.N) (i : S500000x1.Idx) :
    i ∈ ((cfg3.win 7).blk t).view.set ↔ ∀ a : Fin 2, win3_7.index t a * S5000x1.size a ≤ (i a).val
      ∧ (i a).val < win3_7.index t a * S5000x1.size a + S5000x1.size a := by
  show i ∈ ((View.whole main_v63).slice (win3_7.rect t)).set ↔ _
  rw [View.set_slice_whole, Rect.mem_set_unit]
  exact Iff.rfl

/-- Row `r` of the array is written back by grid point `r / 5000`. -/
theorem cover (i : S500000x1.Idx) :
    ∃ t : Fin cfg3.N, (cfg3.win 7).flush t = true ∧ i ∈ ((cfg3.win 7).blk t).view.set := by
  have hi0 : (i 0).val < 500000 := (i 0).isLt
  have hi1 : (i 1).val < 1 := (i 1).isLt
  have hN : cfg3.N = 100 := N_3
  have ht : (i 0).val / 5000 < cfg3.N := by rw [hN]; omega
  obtain ⟨e70, e71, -⟩ := idx_facts ⟨(i 0).val / 5000, ht⟩
  refine ⟨⟨(i 0).val / 5000, ht⟩, flush3_7 _, ?_⟩
  rw [mem_blk]
  intro a
  match a with
  | ⟨0, _⟩ =>
    show win3_7.index ⟨(i 0).val / 5000, ht⟩ (0 : Fin 2) * 5000 ≤ (i 0).val
      ∧ (i 0).val < win3_7.index ⟨(i 0).val / 5000, ht⟩ (0 : Fin 2) * 5000 + 5000
    rw [e70]; show (i 0).val / 5000 * 5000 ≤ (i 0).val ∧ (i 0).val < (i 0).val / 5000 * 5000 + 5000; omega
  | ⟨1, _⟩ =>
    show win3_7.index ⟨(i 0).val / 5000, ht⟩ (1 : Fin 2) * 1 ≤ (i 1).val
      ∧ (i 1).val < win3_7.index ⟨(i 0).val / 5000, ht⟩ (1 : Fin 2) * 1 + 1
    rw [e71]; omega

/-- After all 100 write-backs the output array is the pair scores, whatever the region found in its buffers. -/
theorem final (c : Dev nD) : (dat3 (F := Ideal) V c).arrAt 7 cfg3.N
    = Cert.GcnSpec.pairScore (V c main_v51) (V c main_v58) (V c main_v59) (V c main_v60) (V c main_v61)
        (V c main_arg9) (V c main_v62) :=
  (dat3 V c).arrAt_eq_of_cover 7
    (Cert.GcnSpec.pairScore (V c main_v51) (V c main_v58) (V c main_v59) (V c main_v60) (V c main_v61)
      (V c main_arg9) (V c main_v62))
    (fun t _ => flushed_eq V c t) cover

end Cert.KernelIdeal.Region3

end
-- ==== Proof.KernelValue.lean ====
/-
  The kernel's result as one composition.

  Region by region, the output array of each grid region (what its blocks' write-backs leave: one row-local function
  of the arrays the region reads) composed with the host stretches between the regions: the first layer's scaled
  transform, one propagation step, the second layer's scaled transform of the activation, one more propagation step,
  the final scaling and bias, the two endpoint gathers, and the pair scorer. Everything is stated over the launch
  arguments and over the three arrays region 0 finds already computed from the edge list: the row list, the column
  list and the per-node factor.
-/
import proofs.«174276_j5016521801943_2_alg».proof.Proof.KernelFold
import proofs.«174276_j5016521801943_2_alg».proof.Proof.GcnSpec
import proofs.«174276_j5016521801943_2_alg».proof.Proof.Region0Value
import proofs.«174276_j5016521801943_2_alg».proof.Proof.Region1Value
import proofs.«174276_j5016521801943_2_alg».proof.Proof.Region2Value
import proofs.«174276_j5016521801943_2_alg».proof.Proof.Region3Value

set_option maxRecDepth 16384

noncomputable section

namespace Cert.KernelIdeal.Whole

open Cert.KernelIdeal Cert.KernelIdeal.Gen Cert.KernelIdeal.Fold Cert.GcnSpec
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- Region 0's output: the first layer's transform of the node features, each row scaled by its node's factor. -/
theorem out0 : W4 m ρ c (Proc.devRef .tc main_v16)
    = linScaled (m ((c : Thread nD τ).loc main_arg0)) (m ((c : Thread nD τ).loc main_arg3)) (W3 m ρ c (Proc.devRef .tc main_v15)) := by
  refine (W4_arr m ρ c 3).trans ((Cert.KernelIdeal.Region0.final (V3 m ρ) c).trans ?_)
  show linScaled (W3 m ρ c (Proc.devRef .tc main_arg0)) (W3 m ρ c (Proc.devRef .tc main_arg3)) (W3 m ρ c (Proc.devRef .tc main_v15)) = _
  rw [arg0_at3 m ρ c, arg3_at3 m ρ c]

/-- Region 1's output: the second layer's transform of the first layer's activation, scaled again. -/
theorem out1 : W6 m ρ c (Proc.devRef .tc main_v28)
    = layer2Scaled (propagate (W3 m ρ c (Proc.devRef .tc main_v3)) (W3 m ρ c (Proc.devRef .tc main_v6)) (W4 m ρ c (Proc.devRef .tc main_v16)))
        (W3 m ρ c (Proc.devRef .tc main_v15)) (shapeCast S1x128 (m ((c : Thread nD τ).loc main_arg4)) shapeCasts_S128_S1x128)
        (m ((c : Thread nD τ).loc main_arg5)) := by
  refine (W6_arr m ρ c 4).trans ((Cert.KernelIdeal.Region1.final (V5 m ρ) c).trans ?_)
  show layer2Scaled (W5 m ρ c (Proc.devRef .tc main_v26)) (W5 m ρ c (Proc.devRef .tc main_v15)) (W5 m ρ c (Proc.devRef .tc main_v27))
      (W5 m ρ c (Proc.devRef .tc main_arg5)) = _
  rw [aggregate1 m ρ c, factor_at5 m ρ c, bias1_row m ρ c, arg5_at5 m ρ c]

/-- Region 2's output: the second layer's node embeddings. -/
theorem out2 : W8 m ρ c (Proc.devRef .tc main_v40)
    = postScaled (propagate (W3 m ρ c (Proc.devRef .tc main_v3)) (W3 m ρ c (Proc.devRef .tc main_v6)) (W6 m ρ c (Proc.devRef .tc main_v28)))
        (W3 m ρ c (Proc.devRef .tc main_v15)) (shapeCast S1x128 (m ((c : Thread nD τ).loc main_arg6)) shapeCasts_S128_S1x128) := by
  refine (W8_arr m ρ c 3).trans ((Cert.KernelIdeal.Region2.final (V7 m ρ) c).trans ?_)
  show postScaled (W7 m ρ c (Proc.devRef .tc main_v38)) (W7 m ρ c (Proc.devRef .tc main_v15)) (W7 m ρ c (Proc.devRef .tc main_v39)) = _
  rw [aggregate2 m ρ c, factor_at7 m ρ c, bias2_row m ρ c]

/-- Region 3's output: the pair scores, as a column. -/
theorem out3 : W10 m ρ c (Proc.devRef .tc main_v63)
    = pairScore
        (Host.gather gather_S100000x128_S500000x1_S500000x128_1_0_n_n_0_1_1128 (W8 m ρ c (Proc.devRef .tc main_v40))
          (pairStarts (pairSources (m ((c : Thread nD τ).loc main_arg2)))))
        (Host.gather gather_S100000x128_S500000x1_S500000x128_1_0_n_n_0_1_1128 (W8 m ρ c (Proc.devRef .tc main_v40))
          (pairStarts (pairTargets (m ((c : Thread nD τ).loc main_arg2)))))
        (extractStridedSlice S128x128 ![0, 0] (m ((c : Thread nD τ).loc main_arg7)) slices_S256x128_S128x128_0_0)
        (extractStridedSlice S128x128 ![128, 0] (m ((c : Thread nD τ).loc main_arg7)) slices_S256x128_S128x128_128_0)
        (shapeCast S1x128 (m ((c : Thread nD τ).loc main_arg8)) shapeCasts_S128_S1x128)
        (m ((c : Thread nD τ).loc main_arg9))
        (shapeCast S1x1 (m ((c : Thread nD τ).loc main_arg10)) shapeCasts_S1_S1x1) := by
  refine (W10_arr m ρ c 7).trans ((Cert.KernelIdeal.Region3.final (V9 m ρ) c).trans ?_)
  show pairScore (W9 m ρ c (Proc.devRef .tc main_v51)) (W9 m ρ c (Proc.devRef .tc main_v58)) (W9 m ρ c (Proc.devRef .tc main_v59))
      (W9 m ρ c (Proc.devRef .tc main_v60)) (W9 m ρ c (Proc.devRef .tc main_v61)) (W9 m ρ c (Proc.devRef .tc main_arg9))
      (W9 m ρ c (Proc.devRef .tc main_v62)) = _
  rw [sources_rows m ρ c, targets_rows m ρ c, weight_top m ρ c, weight_bottom m ρ c, scorer_bias1_row m ρ c, arg9_at9 m ρ c,
    scorer_bias2_cell m ρ c]

/-- The result buffer: those scores laid out flat. -/
theorem result : W11 m ρ c (Proc.devRef .tc main_v64)
    = shapeCast S500000 (W10 m ρ c (Proc.devRef .tc main_v63)) shapeCasts_S500000x1_S500000 := result_flat m ρ c

end Cert.KernelIdeal.Whole

end
-- ==== Proof.BridgeReads.lean ====
/-
  The three arrays both programs compute alike from the edge list.

  Before its first region the kernel's host code builds the row list and the column list (each edge row followed by
  the self loops `0 … 99999`), counts each node's incoming edges with a scatter-add of ones, and takes the per-node
  factor: the inverse square root of that count where it is positive, zero elsewhere. The reference's first fourteen
  operations are the same operations on the same argument, so the kernel's three arrays, as region 0 finds them, ARE
  the reference's stages — the factor laid out as a column.
-/
import proofs.«174276_j5016521801943_2_alg».proof.Proof.KernelFold
import proofs.«174276_j5016521801943_2_alg».proof.Proof.RefReadP

set_option maxRecDepth 16384

noncomputable section

namespace Cert.Bridge

open Idealize.ShloMosaic Idealize.ShloMosaic.TcCoe Idealize.ShloMosaic.StableHlo Idealize.SL.Sem
open Cert.ReferenceIdeal Cert.ReferenceIdeal.ReadP

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The row list as region 0 finds it is the reference's. -/
theorem rows_eq : Cert.KernelIdeal.Gen.W3 m ρ c (Proc.devRef .tc Cert.KernelIdeal.main_v3)
    = val_main_v3 (F := Ideal) (m ((c : Thread Cert.KernelIdeal.nD Cert.KernelIdeal.τ).loc Cert.KernelIdeal.main_arg1)) := by
  after_results
  rfl

/-- The column list as region 0 finds it is the reference's. -/
theorem cols_eq : Cert.KernelIdeal.Gen.W3 m ρ c (Proc.devRef .tc Cert.KernelIdeal.main_v6)
    = val_main_v6 (F := Ideal) (m ((c : Thread Cert.KernelIdeal.nD Cert.KernelIdeal.τ).loc Cert.KernelIdeal.main_arg1)) := by
  after_results
  rfl

/-- The last stretch before region 0 lays one vector out as a column, whatever the buffers hold before it. -/
theorem column_of (Wx : Valuation Cert.KernelIdeal.τ Cert.KernelIdeal.sig (Elt Ideal)) :
    StableHlo.after (Cert.KernelIdeal.Gen.hostOps0_2 (F := Ideal)) Wx (Proc.devRef .tc Cert.KernelIdeal.main_v15)
    = shapeCast Cert.KernelIdeal.S100000x1 (Wx (Proc.devRef .tc Cert.KernelIdeal.main_v14))
        Cert.KernelIdeal.Facts₀.shapeCasts_S100000_S100000x1 := by
  after_results
  rfl

/-- The stretch before it selects, node by node, between the inverse square root and zero, whatever the buffers hold. -/
theorem select_of (Wy : Valuation Cert.KernelIdeal.τ Cert.KernelIdeal.sig (Elt Ideal)) :
    StableHlo.after (Cert.KernelIdeal.Gen.hostOps0_1 (F := Ideal)) Wy (Proc.devRef .tc Cert.KernelIdeal.main_v14)
    = select (Wy (Proc.devRef .tc Cert.KernelIdeal.main_v12)) (Wy (Proc.devRef .tc Cert.KernelIdeal.main_v13))
        (broadcastInDim Cert.KernelIdeal.S100000 ![] Cert.KernelIdeal.Facts₀.bcast_S_S100000
          (Wy (Proc.devRef .tc Cert.KernelIdeal.main_cst_2))) := by
  after_results
  rfl

/-- "The degree is positive", node by node: the reference's. -/
theorem positive_eq : Cert.KernelIdeal.Gen.W1 m ρ c (Proc.devRef .tc Cert.KernelIdeal.main_v12)
    = val_main_v12 (F := Ideal) (m ((c : Thread Cert.KernelIdeal.nD Cert.KernelIdeal.τ).loc Cert.KernelIdeal.main_arg1)) := by
  after_results
  rfl
/-- The degrees' inverse square roots: the reference's. -/
theorem rsqrt_eq : Cert.KernelIdeal.Gen.W1 m ρ c (Proc.devRef .tc Cert.KernelIdeal.main_v13)
    = val_main_v13 (F := Ideal) (m ((c : Thread Cert.KernelIdeal.nD Cert.KernelIdeal.τ).loc Cert.KernelIdeal.main_arg1)) := by
  after_results
  rfl
/-- The zero the selection falls back to. -/
theorem zero_eq : Cert.KernelIdeal.Gen.W1 m ρ c (Proc.devRef .tc Cert.KernelIdeal.main_cst_2) = val_main_cst_2 (F := Ideal) := by
  after_results
  rfl

/-- The per-node factor as region 0 finds it is the reference's, laid out as a column. -/
theorem factor_eq : Cert.KernelIdeal.Gen.W3 m ρ c (Proc.devRef .tc Cert.KernelIdeal.main_v15)
    = shapeCast Cert.KernelIdeal.S100000x1
        (val_main_v14 (F := Ideal) (m ((c : Thread Cert.KernelIdeal.nD Cert.KernelIdeal.τ).loc Cert.KernelIdeal.main_arg1)))
        Cert.KernelIdeal.Facts₀.shapeCasts_S100000_S100000x1 := by
  refine (column_of (Cert.KernelIdeal.Gen.W2 m ρ c)).trans ?_
  refine congrArg (fun v => shapeCast Cert.KernelIdeal.S100000x1 v Cert.KernelIdeal.Facts₀.shapeCasts_S100000_S100000x1) ?_
  refine (select_of (Cert.KernelIdeal.Gen.W1 m ρ c)).trans ?_
  rw [positive_eq m ρ c, rsqrt_eq m ρ c, zero_eq m ρ c]
  rfl

end Cert.Bridge

end
-- ==== Proof.IndexLemmas.lean ====
/-
  Library-level facts used by the bridge, none of them about a particular program:
  a finite sum of extended reals times a finite non-negative factor; the guarded reciprocal square root is a finite
  non-negative real; where a scatter of rows into a table lands an update element; a gather of whole table rows, and of
  vector entries, read at a result index; and the normalisation of a possibly negative index on a non-negative one.
  The dimension records are stated over variable extents `N` (table rows), `E` (number of indices), `C` (columns)
  with their well-formedness as an argument, so a program's own literal record is one of them by unfolding.
-/
import Idealize.ShloMosaic.Lib.ValueIdx
import Idealize.ShloMosaic.PureOps.Ideal.Laws
import Mathlib.Data.EReal.Operations

noncomputable section

open scoped BigOperators

namespace Cert.IndexLemmas

open Idealize.ShloMosaic Idealize.ShloMosaic.ValueIdx

/-! ## A finite sum of extended reals times a finite non-negative factor -/

/-- Multiplication by a non-negative finite factor distributes over any finite sum of extended reals
    (no finiteness of the summands is needed: with `0 ≤ D < ⊤` the product by `D` keeps the sign of each
    summand's infinity, so an undetermined `⊤ + ⊥ = ⊥` stays `⊥` on both sides). -/
theorem sum_mul_of_nonneg_of_ne_top {ι : Type*} (s : Finset ι) (f : ι → EReal) {D : EReal}
    (hD : 0 ≤ D) (hD' : D ≠ ⊤) : (∑ j ∈ s, f j) * D = ∑ j ∈ s, f j * D := by
  classical
  induction s using Finset.induction_on with
  | empty => simp
  | insert a s ha ih =>
    rw [Finset.sum_insert ha, Finset.sum_insert ha, EReal.right_distrib_of_nonneg_of_ne_top hD hD', ih]

/-! ## The per-node factor `x ↦ if x > 0 then 1/√x else 0` -/

/-- The guarded reciprocal square root: `1/√x` where `x > 0`, and `0` elsewhere. -/
def nodeFactor (x : EReal) : EReal := Scalar.select (Ideal.cmp .ogt x 0) (Ideal.rsqrt x) 0

/-- Where the argument is positive the factor is the reciprocal square root … -/
theorem nodeFactor_of_pos {x : EReal} (h : 0 < x) : nodeFactor x = Ideal.rsqrt x := by
  unfold nodeFactor Ideal.cmp Scalar.select
  simp [h]

/-- … and elsewhere it is zero. -/
theorem nodeFactor_of_not_pos {x : EReal} (h : ¬ 0 < x) : nodeFactor x = 0 := by
  unfold nodeFactor Ideal.cmp Scalar.select
  simp [h]

/-- The factor is a non-negative real: the guard excludes `⊥`, the negatives and `0` (where the reciprocal
    square root is `⊥`, `⊥` and `⊤`), at `⊤` it is `0` and at a positive real `r` it is the real `(√r)⁻¹ ≥ 0`. -/
theorem nodeFactor_nonneg_ne_top (x : EReal) : 0 ≤ nodeFactor x ∧ nodeFactor x ≠ ⊤ := by
  by_cases h : 0 < x
  · rw [nodeFactor_of_pos h]
    induction x using EReal.rec with
    | bot => exact absurd h (by simp)
    | top => simp
    | coe r =>
      have hr : 0 < r := by exact_mod_cast h
      rw [Ideal.rsqrt_coe, if_neg (not_lt.mpr hr.le), if_neg hr.ne']
      refine ⟨?_, EReal.coe_ne_top _⟩
      exact_mod_cast inv_nonneg.mpr (Real.sqrt_nonneg r)
  · rw [nodeFactor_of_not_pos h]
    exact ⟨le_refl _, EReal.zero_ne_top⟩

/-- Spelt with the operations of a program at one element — a float comparison `>` against the word of `0.0`, the
    host's reciprocal square root, and a select whose other branch is the word of `0.0` — it is `nodeFactor`:
    the word of `0.0` is the extended real `0`. -/
theorem nodeFactor_printed (x : Ideal .f32) :
    Scalar.select (FloatOps.cmpf .ogt x (Ideal.ofBits .f32 0x00000000#32 : Ideal .f32))
      (FloatOps.hostUnary .rsqrt x) (Ideal.ofBits .f32 0x00000000#32 : Ideal .f32) = nodeFactor x := by
  rw [Ideal.ofBits_zero_f32]
  rfl

/-! ## The scatter of rows into a table, at an update index -/

section Scatter

/-- An operand axis is kept by a scatter iff it is not an inserted window axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

/-- The dimension numbers of a scatter of `E` rows of `C` columns into a table `[N, C]` at `E` start rows. -/
abbrev rowsScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the table's row axis the window of update row `e` starts at its start index, read signed. -/
theorem rowsScatter_start0 (idx : IVec ⟨2, ![E, 1]⟩ w) (e : Fin E) (c' : Fin C) :
    (rowsScatter N E C wf).start (ix2 e c') idx 0 = (idx (ix2 e 0)).toInt := by
  unfold ScatterDims.start
  rw [dif_pos (show (0 : Fin 2) ∈ (rowsScatter N E C wf).scatterDimsToOperandDims from List.mem_singleton.mpr rfl)]
  have hsi : (rowsScatter N E C wf).siIdx (ix2 e c') ⟨List.idxOf (0 : Fin 2) (rowsScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at `0`: the start index names the row axis only. -/
theorem rowsScatter_start1 (idx : IVec ⟨2, ![E, 1]⟩ w) (e : Fin E) (c' : Fin C) :
    (rowsScatter N E C wf).start (ix2 e c') idx 1 = 0 := by
  unfold ScatterDims.start
  rw [dif_neg (fun h => absurd (congrArg Fin.val (List.mem_singleton.mp h)) Nat.one_ne_zero)]

/-- The row axis is inserted: no window coordinate on it. -/
theorem rowsScatter_window0 (e : Fin E) (c' : Fin C) : (rowsScatter N E C wf).window (ix2 e c') 0 = 0 := by
  unfold ScatterDims.window
  rw [dif_neg (fun h => ((scatter_mem_sKept _ _).mp h) (List.mem_singleton.mpr rfl))]

/-- The column axis carries the update's column. -/
theorem rowsScatter_window1 (e : Fin E) (c' : Fin C) : (rowsScatter N E C wf).window (ix2 e c') 1 = c'.val := by
  unfold ScatterDims.window
  rw [dif_pos ((scatter_mem_sKept _ _).mpr
    (fun h => absurd (congrArg Fin.val (List.mem_singleton.mp h)) Nat.one_ne_zero))]
  rfl

/-- A property of both operand axes holds on every axis. -/
private theorem forall_axis2 {N C : Nat} (P : Fin (⟨2, ![N, C]⟩ : Shape).rank → Prop) (h0 : P 0) (h1 : P 1) : ∀ a, P a := by
  intro a
  match a with
  | ⟨0, _⟩ => exact h0
  | ⟨1, _⟩ => exact h1

/-- WHERE AN UPDATE ROW LANDS: update element `(e, c')` lands on table element `(n, c)` iff row `e`'s start index,
    read signed and not clamped, is `n`, and the column is kept. -/
theorem rowsScatter_resultIdx_iff (idx : IVec ⟨2, ![E, 1]⟩ w) (e : Fin E) (c' c : Fin C) (n : Fin N) :
    (rowsScatter N E C wf).resultIdx? (ix2 e c') idx = some (ix2 n c) ↔
      (idx (ix2 e 0)).toInt = (n.val : ℤ) ∧ c' = c := by
  have hs0 := rowsScatter_start0 wf idx e c'
  have hs1 := rowsScatter_start1 wf idx e c'
  have hw0 := rowsScatter_window0 wf e c'
  have hw1 := rowsScatter_window1 wf e c'
  unfold ScatterDims.resultIdx?
  constructor
  · intro h
    split at h
    · rename_i hb
      have h' := Option.some.inj h
      have h0 : ((rowsScatter N E C wf).start (ix2 e c') idx 0
          + ((rowsScatter N E C wf).window (ix2 e c') 0 : ℤ)).toNat = n.val := congrArg (fun f => (f 0).val) h'
      have h1 : ((rowsScatter N E C wf).start (ix2 e c') idx 1
          + ((rowsScatter N E C wf).window (ix2 e c') 1 : ℤ)).toNat = c.val := congrArg (fun f => (f 1).val) h'
      have hb0 := (hb 0).1
      rw [hs0, hw0] at h0 hb0
      rw [hs1, hw1] at h1
      refine ⟨by omega, Fin.ext (by omega)⟩
    · exact absurd h (by simp)
  · rintro ⟨h0, rfl⟩
    have hb : ∀ a, 0 ≤ (rowsScatter N E C wf).start (ix2 e c') idx a + ((rowsScatter N E C wf).window (ix2 e c') a : ℤ) ∧
        (rowsScatter N E C wf).start (ix2 e c') idx a + ((rowsScatter N E C wf).window (ix2 e c') a : ℤ)
          < ((⟨2, ![N, C]⟩ : Shape).size a : ℤ) := by
      refine forall_axis2 _ ?_ ?_
      · rw [hs0, hw0]
        show _ ∧ _ < (N : ℤ)
        have := n.isLt
        omega
      · rw [hs1, hw1]
        show _ ∧ _ < (C : ℤ)
        have := c'.isLt
        omega
    rw [dif_pos hb]
    congr 1
    funext a
    refine Fin.ext ?_
    match a with
    | ⟨0, _⟩ =>
      show ((rowsScatter N E C wf).start (ix2 e c') idx 0
          + ((rowsScatter N E C wf).window (ix2 e c') 0 : ℤ)).toNat = n.val
      rw [hs0, hw0]; omega
    | ⟨1, _⟩ =>
      show ((rowsScatter N E C wf).start (ix2 e c') idx 1
          + ((rowsScatter N E C wf).window (ix2 e c') 1 : ℤ)).toNat = c'.val
      rw [hs1, hw1]; omega

/-- The form a sum over the landing updates uses: an update element `(e, c')` that lands on table element `i` has
    its start index — also when clamped into `[0, N − 1]`, as a gather reads it — equal to `i`'s row, and `i`'s column. -/
theorem rowsScatter_resultIdx_some (idx : IVec ⟨2, ![E, 1]⟩ w) (e : Fin E) (c' : Fin C)
    (i : (⟨2, ![N, C]⟩ : Shape).Idx) (h : (rowsScatter N E C wf).resultIdx? (ix2 e c') idx = some i) :
    min (idx (ix2 e 0)).toInt.toNat (N - 1) = (i 0).val ∧ c' = i 1 := by
  rw [eq_ix2 i] at h
  obtain ⟨h0, h1⟩ := (rowsScatter_resultIdx_iff wf idx e c' (i 1) (i 0)).mp h
  have := idx2_lt0 i
  refine ⟨by omega, h1⟩

end Scatter

/-! ## The gather of table rows, and of vector entries, at a result index -/

section Gather
variable {α : Type}

/-- The dimension numbers of a gather of `E` whole rows (`C` columns each) of a table `[N, C]` at `E` start rows. -/
abbrev rowsGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the table at the row named by start index `e`, read signed and clamped into
    `[0, N − 1]`, and at column `c`. -/
theorem rowsGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsGather N E C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowsGather N E C wf).start (ix2 e c) idx 0 + (rowsGather N E C wf).batchCoord (ix2 e c) 0
      + (rowsGather N E C wf).offCoord (ix2 e c) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N E C wf).startIndexMap from List.mem_singleton.mpr rfl)]
    have hsi : (rowsGather N E C wf).siIdx (ix2 e c) ⟨List.idxOf (0 : Fin 2) (rowsGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsGather N E C wf).start (ix2 e c) idx 1 + (rowsGather N E C wf).batchCoord (ix2 e c) 1
      + (rowsGather N E C wf).offCoord (ix2 e c) 1 = c.val
    rw [GatherDims.batchCoord_eq_zero _ _ _ List.not_mem_nil]
    have hst : (rowsGather N E C wf).start (ix2 e c) idx 1 = 0 := by
      unfold GatherDims.start
      rw [dif_neg (fun h => absurd (congrArg Fin.val (List.mem_singleton.mp h)) Nat.one_ne_zero)]
    have hoff : (rowsGather N E C wf).offCoord (ix2 e c) 1 = c.val := by
      unfold GatherDims.offCoord
      rw [dif_pos ((GatherDims.mem_sKept _ _).mpr
        ⟨fun h => absurd (congrArg Fin.val (List.mem_singleton.mp h)) Nat.one_ne_zero, List.not_mem_nil⟩)]
      rfl
    rw [hst, hoff]
    simp only [Nat.add_zero, Nat.zero_add]

/-- The dimension numbers of a gather of `E` entries of a vector `[N]` at `E` start positions. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the vector at the position named by start index `e`, read signed and clamped
    into `[0, N − 1]` — the same clamped position as the row gather's row. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = min (idx (ix2 e 0)).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Normalising a possibly negative index -/

/-- Against the word `0` the signed comparison `<` of a word whose signed value is non-negative is the bit `0`. -/
theorem cmpi_slt_zero_of_nonneg (v : BitVec 32) (hv : 0 ≤ v.toInt) : IntOp.cmpi .slt v 0#32 = 0#1 := by
  have h : v.slt 0#32 = false := by
    simp only [BitVec.slt, BitVec.toInt_zero, decide_eq_false_iff_not, not_lt]
    exact hv
  unfold IntOp.cmpi
  simp only [h]
  rfl

/-- The normalisation "add the extent where the index is negative" is the identity on a word whose signed value is
    non-negative, whatever word is added: the comparison's bit is `0` and the select takes the index itself. -/
theorem normalise_of_nonneg (v k : BitVec 32) (hv : 0 ≤ v.toInt) :
    Scalar.select (IntOp.cmpi .slt v 0#32) (IntOp.addi v k) v = v := by
  rw [cmpi_slt_zero_of_nonneg v hv]
  exact select_zero _ _

end Cert.IndexLemmas

end
-- ==== Proof.PropagateLaw.lean ====
/-
  Laws of the extended reals read through gathers, a scatter and a concatenation, none about a particular program's run.
  The propagation law: summed over the edges that land on a node, the node's own finite non-negative factor comes out
  of the sum of the weighted source rows. A contraction over a concatenation: two tables side by side, contracted with
  a third, give the sum of the two pieces' contractions with the third table's upper and lower row blocks; the pair
  scorer is an instance. Last, a vector laid out as a column and a column read back as a vector.
-/
import proofs.«174276_j5016521801943_2_alg».proof.Proof.IndexLemmas
import proofs.«174276_j5016521801943_2_alg».proof.Proof.GcnSpec
import Idealize.ShloMosaic.Lib.Pipeline.Value

noncomputable section

open scoped BigOperators

namespace Cert.PropagateLaw

open Idealize.ShloMosaic Idealize.ShloMosaic.ValueIdx Cert.IndexLemmas

/-- A table of extended reals with `r` rows and `c` columns. -/
abbrev Mat (r c : Nat) : Type := (⟨2, ![r, c]⟩ : Shape).Idx → EReal
/-- A vector of `n` extended reals. -/
abbrev Vecc (n : Nat) : Type := (⟨1, ![n]⟩ : Shape).Idx → EReal

/-! ## The propagation law

Edge `e` carries the row `X[r e]` of its source node `r e`, weighted by `D[r e] · D[n]` where `n` is its target node,
to the target. Summed over the edges that land on a node `n` the common factor `D[n]` — a finite non-negative
real — comes out of the sum, and what is left is the sum of the rows of the pre-scaled table `X' = X · D`. -/

section Propagate
variable {N E C : Nat} (hN : 0 < N)
  (wfS : ScatterDims.WF ⟨2, ![N, C]⟩ ⟨2, ![E, 1]⟩ ⟨2, ![E, C]⟩ [1] [0] [0] 1)
  (wfG : GatherDims.WF ⟨2, ![N, C]⟩ ⟨2, ![E, 1]⟩ ⟨2, ![E, C]⟩ [1] [0] [] [0] [] 1 ![1, C])
  (wfV : GatherDims.WF ⟨1, ![N]⟩ ⟨2, ![E, 1]⟩ ⟨1, ![E]⟩ [] [0] [] [0] [] 1 ![1])
include hN

/-- One edge's term. An update element `(e, c')` lands on node `n` exactly when edge `e`'s target index, read signed
    and not clamped, is `n`; it is then non-negative, so the normalised target index is the raw one and its clamped
    read is `n`; the source row `r` is the same in the three gathers; and `X r c' · (D r · D n) = (X r c' · D r) · D n`. -/
theorem propagate_term (X X' : Mat N C) (D : Vecc N)
    (hX' : ∀ (n : Fin N) (c : Fin C), X' (ix2 n c) = X (ix2 n c) * D (ix1 n))
    (rows cols colsN : IVec ⟨2, ![E, 1]⟩ 32)
    (hcols : ∀ e : Fin E, 0 ≤ (cols (ix2 e 0)).toInt → colsN (ix2 e 0) = cols (ix2 e 0))
    (n : Fin N) (c : Fin C) (e : Fin E) (c' : Fin C)
    (h : (rowsScatter N E C wfS).resultIdx? (ix2 e c') cols = some (ix2 n c)) :
    Host.gather (rowsGather N E C wfG) X rows (ix2 e c')
        * (Host.gather (vecGather N E wfV) D rows (ix1 e) * Host.gather (vecGather N E wfV) D colsN (ix1 e))
      = Host.gather (rowsGather N E C wfG) X' rows (ix2 e c') * D (ix1 n) := by
  obtain ⟨h0, -⟩ := (rowsScatter_resultIdx_iff wfS cols e c' c n).mp h
  have hn' := n.isLt
  have hc := hcols e (by omega)
  have hn : (⟨min (colsN (ix2 e 0)).toInt.toNat (N - 1), by omega⟩ : Fin N) = n :=
    Fin.ext (by show min (colsN (ix2 e 0)).toInt.toNat (N - 1) = n.val; rw [hc]; omega)
  rw [rowsGather_apply hN wfG X rows e c', rowsGather_apply hN wfG X' rows e c', vecGather_apply hN wfV D rows e,
    vecGather_apply hN wfV D colsN e, hX', hn, mul_assoc]

/-- THE LAW, at a node `n` and column `c`. -/
theorem propagate_factor_ix (X X' : Mat N C) (D : Vecc N) (hD : ∀ n, 0 ≤ D n ∧ D n ≠ ⊤)
    (hX' : ∀ (n : Fin N) (c : Fin C), X' (ix2 n c) = X (ix2 n c) * D (ix1 n))
    (rows cols colsN : IVec ⟨2, ![E, 1]⟩ 32)
    (hcols : ∀ e : Fin E, 0 ≤ (cols (ix2 e 0)).toInt → colsN (ix2 e 0) = cols (ix2 e 0))
    (n : Fin N) (c : Fin C)
    [DecidablePred fun j => (rowsScatter N E C wfS).resultIdx? j cols = some (ix2 n c)] :
    (∑ j ∈ Finset.univ.filter (fun j => (rowsScatter N E C wfS).resultIdx? j cols = some (ix2 n c)),
        Host.gather (rowsGather N E C wfG) X rows j
          * (Host.gather (vecGather N E wfV) D rows (ix1 (j 0)) * Host.gather (vecGather N E wfV) D colsN (ix1 (j 0))))
      = (∑ j ∈ Finset.univ.filter (fun j => (rowsScatter N E C wfS).resultIdx? j cols = some (ix2 n c)),
          Host.gather (rowsGather N E C wfG) X' rows j) * D (ix1 n) := by
  rw [sum_mul_of_nonneg_of_ne_top _ _ (hD _).1 (hD _).2]
  refine Finset.sum_congr rfl ?_
  intro j hj
  have hj' := (Finset.mem_filter.mp hj).2
  obtain ⟨e, c', rfl⟩ : ∃ (e : Fin E) (c' : Fin C), j = ix2 e c' := ⟨j 0, j 1, eq_ix2 j⟩
  exact propagate_term hN wfS wfG wfV X X' D hX' rows cols colsN hcols n c e c' hj'

/-- THE LAW, at a table index `i`: its node is `i`'s row. -/
theorem propagate_factor (X X' : Mat N C) (D : Vecc N) (hD : ∀ n, 0 ≤ D n ∧ D n ≠ ⊤)
    (hX' : ∀ (n : Fin N) (c : Fin C), X' (ix2 n c) = X (ix2 n c) * D (ix1 n))
    (rows cols colsN : IVec ⟨2, ![E, 1]⟩ 32)
    (hcols : ∀ e : Fin E, 0 ≤ (cols (ix2 e 0)).toInt → colsN (ix2 e 0) = cols (ix2 e 0))
    (i : (⟨2, ![N, C]⟩ : Shape).Idx)
    [DecidablePred fun j => (rowsScatter N E C wfS).resultIdx? j cols = some i] :
    (∑ j ∈ Finset.univ.filter (fun j => (rowsScatter N E C wfS).resultIdx? j cols = some i),
        Host.gather (rowsGather N E C wfG) X rows j
          * (Host.gather (vecGather N E wfV) D rows (ix1 (j 0)) * Host.gather (vecGather N E wfV) D colsN (ix1 (j 0))))
      = (∑ j ∈ Finset.univ.filter (fun j => (rowsScatter N E C wfS).resultIdx? j cols = some i),
          Host.gather (rowsGather N E C wfG) X' rows j) * D (ix1 (i 0)) := by
  obtain ⟨n, c, rfl⟩ : ∃ (n : Fin N) (c : Fin C), i = ix2 n c := ⟨i 0, i 1, eq_ix2 i⟩
  exact propagate_factor_ix hN wfS wfG wfV X X' D hD hX' rows cols colsN hcols n c

end Propagate

/-! ## A contraction over a concatenation

Two tables `a : [P, K₁]` and `b : [P, K₂]` laid side by side along the column axis form `[P, M]`, `M = K₁ + K₂`:
column `m` of the result is column `m` of `a` for `m < K₁` and column `m − K₁` of `b` otherwise. A contraction of the
result with `W : [M, J]` is therefore the contraction of `a` with `W`'s first `K₁` rows plus that of `b` with its
last `K₂` rows. -/

section Cat
variable {α : Type}

/-- The concatenation at a column of the first piece. -/
theorem cat_apply_left {P K₁ K₂ M : Nat}
    (h : Shape.Concatenates [⟨2, ![P, K₁]⟩, ⟨2, ![P, K₂]⟩] ⟨2, ![P, M]⟩ 1)
    (a : (⟨2, ![P, K₁]⟩ : Shape).Idx → α) (b : (⟨2, ![P, K₂]⟩ : Shape).Idx → α)
    (p : Fin P) (m : Fin M) (k : Fin K₁) (hk : m.val = k.val) :
    concatenate ⟨2, ![P, M]⟩ 1 [⟨⟨2, ![P, K₁]⟩, a⟩, ⟨⟨2, ![P, K₂]⟩, b⟩] h (ix2 p m) = a (ix2 p k) := by
  refine concatenate_pair_apply_left 1 a b h (ix2 p m) rfl (ix2 p k) ?_
  intro b'
  match b' with
  | ⟨0, _⟩ => rfl
  | ⟨1, _⟩ => exact hk.symm

/-- The concatenation at a column of the second piece: the first piece's extent less. -/
theorem cat_apply_right {P K₁ K₂ M : Nat}
    (h : Shape.Concatenates [⟨2, ![P, K₁]⟩, ⟨2, ![P, K₂]⟩] ⟨2, ![P, M]⟩ 1)
    (a : (⟨2, ![P, K₁]⟩ : Shape).Idx → α) (b : (⟨2, ![P, K₂]⟩ : Shape).Idx → α)
    (p : Fin P) (m : Fin M) (k : Fin K₂) (hk : m.val = K₁ + k.val) :
    concatenate ⟨2, ![P, M]⟩ 1 [⟨⟨2, ![P, K₁]⟩, a⟩, ⟨⟨2, ![P, K₂]⟩, b⟩] h (ix2 p m) = b (ix2 p k) := by
  refine concatenate_pair_apply_right 1 a b h (ix2 p m) rfl rfl (ix2 p k) ?_ ?_
  · intro b' hb'
    match b', hb' with
    | ⟨0, _⟩, _ => rfl
    | ⟨1, _⟩, hb' => exact absurd rfl hb'
  · show k.val + K₁ = m.val
    omega

/-- A block of whole rows of a table, from row `off` on, read at an index: the table `off` rows further down. -/
theorem slice_rows_apply {R₀ R J : Nat} (off : Nat) (h : (⟨2, ![R₀, J]⟩ : Shape).Slices ![off, 0] ⟨2, ![R, J]⟩)
    (hle : off + R ≤ R₀) (W : (⟨2, ![R₀, J]⟩ : Shape).Idx → α) (k : Fin R) (j : Fin J) :
    extractStridedSlice ⟨2, ![R, J]⟩ ![off, 0] W h (ix2 k j) = W (ix2 ⟨off + k.val, by omega⟩ j) := by
  refine extractStridedSlice_apply ![off, 0] W h (ix2 k j) (ix2 ⟨off + k.val, by omega⟩ j) ?_
  intro a
  match a with
  | ⟨0, _⟩ => rfl
  | ⟨1, _⟩ => exact (Nat.zero_add _).symm

/-- The block from row `0` on: the table's own first rows. -/
theorem slice_top_apply {R₀ R J : Nat} (h : (⟨2, ![R₀, J]⟩ : Shape).Slices ![0, 0] ⟨2, ![R, J]⟩)
    (hle : R ≤ R₀) (W : (⟨2, ![R₀, J]⟩ : Shape).Idx → α) (k : Fin R) (j : Fin J) :
    extractStridedSlice ⟨2, ![R, J]⟩ ![0, 0] W h (ix2 k j) = W (ix2 ⟨k.val, by omega⟩ j) := by
  refine extractStridedSlice_apply ![0, 0] W h (ix2 k j) (ix2 ⟨k.val, by omega⟩ j) ?_
  intro a
  match a with
  | ⟨0, _⟩ => exact (Nat.zero_add _).symm
  | ⟨1, _⟩ => exact (Nat.zero_add _).symm

end Cat

/-- THE SPLIT: a contraction of the side-by-side table with `W` is the sum of the two pieces' contractions with
    `W`'s first `K₁` and last `K₂` rows. -/
theorem sum_cat_mul {P K₁ K₂ M J : Nat} (hM : K₁ + K₂ = M)
    (h : Shape.Concatenates [⟨2, ![P, K₁]⟩, ⟨2, ![P, K₂]⟩] ⟨2, ![P, M]⟩ 1)
    (a : Mat P K₁) (b : Mat P K₂) (W : Mat M J) (p : Fin P) (j : Fin J) :
    ∑ m : Fin M, concatenate ⟨2, ![P, M]⟩ 1 [⟨⟨2, ![P, K₁]⟩, a⟩, ⟨⟨2, ![P, K₂]⟩, b⟩] h (ix2 p m) * W (ix2 m j)
      = (∑ k : Fin K₁, a (ix2 p k) * W (ix2 ⟨k.val, by omega⟩ j))
        + ∑ k : Fin K₂, b (ix2 p k) * W (ix2 ⟨K₁ + k.val, by omega⟩ j) := by
  subst hM
  rw [Fin.sum_univ_add]
  congr 1
  · refine Finset.sum_congr rfl fun k _ => ?_
    rw [cat_apply_left h a b p (Fin.castAdd K₂ k) k rfl]
    rfl
  · refine Finset.sum_congr rfl fun k _ => ?_
    rw [cat_apply_right h a b p (Fin.natAdd K₁ k) k rfl]
    rfl

/-- The same with `W`'s two row blocks spelt as slices: the pieces' contractions with the block of `W` from row
    `0` and the block from row `K₁`. -/
theorem sum_cat_mul_slices {P K₁ K₂ M J : Nat} (hM : K₁ + K₂ = M)
    (h : Shape.Concatenates [⟨2, ![P, K₁]⟩, ⟨2, ![P, K₂]⟩] ⟨2, ![P, M]⟩ 1)
    (h₁ : (⟨2, ![M, J]⟩ : Shape).Slices ![0, 0] ⟨2, ![K₁, J]⟩)
    (h₂ : (⟨2, ![M, J]⟩ : Shape).Slices ![K₁, 0] ⟨2, ![K₂, J]⟩)
    (a : Mat P K₁) (b : Mat P K₂) (W : Mat M J) (p : Fin P) (j : Fin J) :
    ∑ m : Fin M, concatenate ⟨2, ![P, M]⟩ 1 [⟨⟨2, ![P, K₁]⟩, a⟩, ⟨⟨2, ![P, K₂]⟩, b⟩] h (ix2 p m) * W (ix2 m j)
      = (∑ k : Fin K₁, a (ix2 p k) * extractStridedSlice ⟨2, ![K₁, J]⟩ ![0, 0] W h₁ (ix2 k j))
        + ∑ k : Fin K₂, b (ix2 p k) * extractStridedSlice ⟨2, ![K₂, J]⟩ ![K₁, 0] W h₂ (ix2 k j) := by
  rw [sum_cat_mul hM h a b W p j]
  congr 1
  · refine Finset.sum_congr rfl fun k _ => ?_
    rw [slice_top_apply h₁ (by omega) W k j]
  · refine Finset.sum_congr rfl fun k _ => ?_
    rw [slice_rows_apply K₁ h₂ (by omega) W k j]

/-! ## The pair scorer against the concatenated contraction -/

/-- The scorer's hidden layer contracts the two endpoint rows each with its half of the first weight table; the same
    number is the contraction of the two rows laid side by side with the whole table: a sum over `256` columns splits
    into two sums over `128`. -/
theorem pairScore_eq_cat
    (h : Shape.Concatenates [⟨2, ![500000, 128]⟩, ⟨2, ![500000, 128]⟩] ⟨2, ![500000, 256]⟩ 1)
    (h₁ : (⟨2, ![256, 128]⟩ : Shape).Slices ![0, 0] ⟨2, ![128, 128]⟩)
    (h₂ : (⟨2, ![256, 128]⟩ : Shape).Slices ![128, 0] ⟨2, ![128, 128]⟩)
    (Hs Hd : Mat 500000 128) (Wm1 : Mat 256 128) (B1 : Mat 1 128) (w2 : Mat 128 1) (B2 : Mat 1 1) (p : Fin 500000) :
    Cert.GcnSpec.pairScore Hs Hd (extractStridedSlice ⟨2, ![128, 128]⟩ ![0, 0] Wm1 h₁)
        (extractStridedSlice ⟨2, ![128, 128]⟩ ![128, 0] Wm1 h₂) B1 w2 B2 (ix2 p 0)
      = (∑ j : Fin 128, max ((∑ m : Fin 256,
            concatenate ⟨2, ![500000, 256]⟩ 1 [⟨⟨2, ![500000, 128]⟩, Hs⟩, ⟨⟨2, ![500000, 128]⟩, Hd⟩] h (ix2 p m)
              * Wm1 (ix2 m j)) + B1 (ix2 0 j)) 0 * w2 (ix2 j 0)) + B2 (ix2 0 0) := by
  unfold Cert.GcnSpec.pairScore
  congr 1
  refine Finset.sum_congr rfl fun j _ => ?_
  rw [sum_cat_mul_slices (by norm_num) h h₁ h₂ Hs Hd Wm1 p j]

/-! ## A vector laid out as a column, and a column read back as a vector -/

section Column
variable {α : Type}

/-- A vector `[n]` cast to a column `[n, 1]` reads, at `(a, u)`, the vector at `a`, whatever the unit coordinate. -/
theorem shapeCast_a_a1_apply {n : ℕ} (v : (⟨1, ![n]⟩ : Shape).Idx → α)
    (h : (⟨1, ![n]⟩ : Shape).ShapeCasts ⟨2, ![n, 1]⟩) (a : Fin n) (u : Fin 1) :
    shapeCast ⟨2, ![n, 1]⟩ v h (ix2 a u) = v (ix1 a) :=
  shapeCast_apply v h _ _ (by
    have hu : u.val = 0 := by omega
    rw [Shape.rowMajor_val_two, Shape.rowMajor_val_one]
    show a.val = a.val * 1 + u.val
    rw [hu, Nat.mul_one, Nat.add_zero])

/-- A column `[n, 1]` cast to a vector `[n]` reads, at `a`, the column at `(a, 0)`. -/
theorem shapeCast_a1_a_apply {n : ℕ} (x : (⟨2, ![n, 1]⟩ : Shape).Idx → α)
    (h : (⟨2, ![n, 1]⟩ : Shape).ShapeCasts ⟨1, ![n]⟩) (a : Fin n) :
    shapeCast ⟨1, ![n]⟩ x h (ix1 a) = x (ix2 a (0 : Fin 1)) :=
  shapeCast_apply x h _ _ (by
    rw [Shape.rowMajor_val_two, Shape.rowMajor_val_one]
    show a.val * 1 + 0 = a.val
    rw [Nat.mul_one, Nat.add_zero])

end Column

end Cert.PropagateLaw

end
-- ==== Proof.LayerLaw.lean ====
/-
  The layer law in the reference program's own stages. An edge `e` from source node `s e` to target node `t e` carries
  row `s e` of a node table weighted by `D[s e] · D[t e]`, `D` the per-node factor (the guarded reciprocal square root of
  the degree count, a finite non-negative real); the rows are added up at the target nodes. Because `D[t e]` is the
  same for every edge landing on a node, the aggregate of the weighted rows of `X` at node `n` is `D[n]` times the
  aggregate of the rows of the pre-scaled table `X' = X · D`. Both layers aggregate with the same edge lists and
  weights, so the one law serves both.
-/
import proofs.«174276_j5016521801943_2_alg».proof.Proof.RefReadP
import proofs.«174276_j5016521801943_2_alg».proof.Proof.IndexLemmas
import proofs.«174276_j5016521801943_2_alg».proof.Proof.PropagateLaw

noncomputable section

open scoped BigOperators

namespace Cert.LayerLaw

open Cert.ReferenceIdeal Cert.ReferenceIdeal.ReadP Idealize.ShloMosaic Idealize.ShloMosaic.ValueIdx
open Cert.IndexLemmas Cert.PropagateLaw

/-- The scatter-add, into a zero table, of gathered source rows each weighted by a per-edge weight that is the product
    of the source node's and the target node's factors: the target node's factor comes out, and what is left is the
    scatter-add of the rows of the pre-scaled table. -/
theorem scatterAdd_propagate {N E C : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfV : GatherDims.WF ⟨1, ![N]⟩ ⟨2, ![E, 1]⟩ ⟨1, ![E]⟩ [] [0] [] [0] [] 1 ![1])
    (X X' : Mat N C) (D : Vecc N) (hD : ∀ n, 0 ≤ D n ∧ D n ≠ ⊤)
    (hX' : ∀ (n : Fin N) (c : Fin C), X' (ix2 n c) = X (ix2 n c) * D (ix1 n))
    (rows cols colsN : IVec ⟨2, ![E, 1]⟩ 32)
    (hcols : ∀ e : Fin E, 0 ≤ (cols (ix2 e 0)).toInt → colsN (ix2 e 0) = cols (ix2 e 0))
    (Z : Mat N C) (hZ : ∀ i, Z i = 0)
    (W : (⟨2, ![E, C]⟩ : Shape).Idx → EReal)
    (hW : ∀ (e : Fin E) (c' : Fin C), W (ix2 e c')
      = Host.gather (vecGather N E wfV) D rows (ix1 e) * Host.gather (vecGather N E wfV) D colsN (ix1 e))
    (n : Fin N) (c : Fin C) :
    Ideal.hostScatterAdd (rowsScatter N E C wfS) Z cols
        (fun j => Host.gather (rowsGather N E C wfG) X rows j * W j) (ix2 n c)
      = Ideal.hostScatterAdd (rowsScatter N E C wfS) Z cols (Host.gather (rowsGather N E C wfG) X' rows) (ix2 n c)
          * D (ix1 n) := by
  unfold Ideal.hostScatterAdd
  rw [hZ, zero_add, zero_add]
  refine Eq.trans (Finset.sum_congr rfl ?_)
    (propagate_factor_ix hN wfS wfG wfV X X' D hD hX' rows cols colsN hcols n c)
  intro j _
  obtain ⟨e, c', rfl⟩ : ∃ (e : Fin E) (c' : Fin C), j = ix2 e c' := ⟨j 0, j 1, eq_ix2 j⟩
  show Host.gather (rowsGather N E C wfG) X rows (ix2 e c') * W (ix2 e c')
    = Host.gather (rowsGather N E C wfG) X rows (ix2 e c')
      * (Host.gather (vecGather N E wfV) D rows (ix1 e) * Host.gather (vecGather N E wfV) D colsN (ix1 e))
  rw [hW]

/-- The same for any scatter and gather records that ARE the row scatter and row gather, spelt with the host's
    accumulating scatter and the elementwise product. -/
theorem hostScatterAdd_propagate {N E C : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfV : GatherDims.WF ⟨1, ![N]⟩ ⟨2, ![E, 1]⟩ ⟨1, ![E]⟩ [] [0] [] [0] [] 1 ![1])
    (dS : ScatterDims ⟨2, ![N, C]⟩ ⟨2, ![E, 1]⟩ ⟨2, ![E, C]⟩) (hdS : dS = rowsScatter N E C wfS)
    (dG : GatherDims ⟨2, ![N, C]⟩ ⟨2, ![E, 1]⟩ ⟨2, ![E, C]⟩) (hdG : dG = rowsGather N E C wfG)
    (X X' : FVec Ideal ⟨2, ![N, C]⟩ .f32) (D : FVec Ideal ⟨1, ![N]⟩ .f32) (hD : ∀ n, 0 ≤ D n ∧ D n ≠ ⊤)
    (hX' : ∀ (n : Fin N) (c : Fin C), X' (ix2 n c) = X (ix2 n c) * D (ix1 n))
    (rows cols colsN : IVec ⟨2, ![E, 1]⟩ 32)
    (hcols : ∀ e : Fin E, 0 ≤ (cols (ix2 e 0)).toInt → colsN (ix2 e 0) = cols (ix2 e 0))
    (Z : FVec Ideal ⟨2, ![N, C]⟩ .f32) (hZ : ∀ i, Z i = 0)
    (W : FVec Ideal ⟨2, ![E, C]⟩ .f32)
    (hW : ∀ (e : Fin E) (c' : Fin C), W (ix2 e c')
      = Host.gather (vecGather N E wfV) D rows (ix1 e) * Host.gather (vecGather N E wfV) D colsN (ix1 e))
    (n : Fin N) (c : Fin C) :
    Host.scatterAdd (F := Ideal) (φ := .f32) dS Z cols (mulf (F := Ideal) (φ := .f32) (Host.gather dG X rows) W) (ix2 n c)
      = Host.scatterAdd (F := Ideal) (φ := .f32) dS Z cols (Host.gather dG X' rows) (ix2 n c) * D (ix1 n) := by
  subst hdS hdG
  exact scatterAdd_propagate hN wfS wfG wfV X X' D hD hX' rows cols colsN hcols Z hZ W hW n c

section Reference
variable (x1 : (⟨S2x1600000, .i32⟩ : BufTy).Contents (Elt Ideal))

/-- The reference's per-node factor is the guarded reciprocal square root of the node's degree count. -/
theorem v14_eq_nodeFactor (n : S100000.Idx) :
    val_main_v14 (F := Ideal) x1 n = nodeFactor (val_main_v10 (F := Ideal) x1 n) := by
  rw [val_main_v14_apply, val_main_v12_apply, val_main_v13_apply, val_main_v11_apply, val_main_call0_v1_apply]
  exact nodeFactor_printed _

/-- So it is a finite non-negative real at every node, whatever the degree count is. -/
theorem v14_nonneg_ne_top (n : S100000.Idx) :
    0 ≤ val_main_v14 (F := Ideal) x1 n ∧ val_main_v14 (F := Ideal) x1 n ≠ ⊤ := by
  rw [v14_eq_nodeFactor]
  exact nodeFactor_nonneg_ne_top _

/-- The table the edges' rows are added into is zero. -/
theorem v41_eq_zero (i : S100000x128.Idx) : val_main_v41 (F := Ideal) i = 0 := by
  rw [val_main_v41_apply, val_main_cst_8_apply]
  exact Ideal.ofBits_zero_f32

/-- The two normalisations of the source list are one function. -/
theorem v20_eq_v36 : val_main_v20 (F := Ideal) x1 = val_main_v36 (F := Ideal) x1 := rfl

/-- Where a target index is non-negative its normalisation is the index itself. -/
theorem v27_eq_v42 (e : Fin 1700000) (he : 0 ≤ (val_main_v42 (F := Ideal) x1 (ix2 e 0)).toInt) :
    val_main_v27 (F := Ideal) x1 (ix2 e 0) = val_main_v42 (F := Ideal) x1 (ix2 e 0) := by
  have hk1 : idx_main_v27 (ix2 e (0 : Fin 1)) = ix1 e := by
    funext a; match a with | ⟨0, _⟩ => rfl
  have hk2 : idx_main_v42 (ix2 e (0 : Fin 1)) = ix1 e := by
    funext a; match a with | ⟨0, _⟩ => rfl
  rw [val_main_v42_apply, hk2] at he ⊢
  rw [val_main_v27_apply, hk1, val_main_v26_apply, val_main_v23_apply, val_main_v25_apply, val_main_v22_apply]
  exact normalise_of_nonneg _ _ he

/-- The source nodes' factors along the edges: the factor vector gathered at the normalised source list. -/
theorem v21_eq :
    val_main_v21 (F := Ideal) x1
      = Host.gather (vecGather 100000 1700000 Facts₀.gather_S100000_S1700000x1_S1700000_n_0_n_n_0_1_1_wf)
          (val_main_v14 (F := Ideal) x1) (val_main_v36 (F := Ideal) x1) := rfl

/-- The target nodes' factors along the edges: the factor vector gathered at the normalised target list. -/
theorem v28_eq :
    val_main_v28 (F := Ideal) x1
      = Host.gather (vecGather 100000 1700000 Facts₀.gather_S100000_S1700000x1_S1700000_n_0_n_n_0_1_1_wf)
          (val_main_v14 (F := Ideal) x1) (val_main_v27 (F := Ideal) x1) := rfl

/-- An edge's weight, the same in every column: the source node's factor times the target node's. -/
theorem v39_eq (e : Fin 1700000) (c' : Fin 128) :
    val_main_v39 (F := Ideal) x1 (ix2 e c')
      = Host.gather (vecGather 100000 1700000 Facts₀.gather_S100000_S1700000x1_S1700000_n_0_n_n_0_1_1_wf)
          (val_main_v14 (F := Ideal) x1) (val_main_v36 (F := Ideal) x1) (ix1 e)
        * Host.gather (vecGather 100000 1700000 Facts₀.gather_S100000_S1700000x1_S1700000_n_0_n_n_0_1_1_wf)
          (val_main_v14 (F := Ideal) x1) (val_main_v27 (F := Ideal) x1) (ix1 e) := by
  have hk : idx_main_v38 (idx_main_v39 (ix2 e c')) = ix1 e := by
    funext a; match a with | ⟨0, _⟩ => rfl
  rw [val_main_v39_apply, val_main_v38_apply, hk, val_main_v29_apply, Ideal.mulf_def, v21_eq, v28_eq]

end Reference

/-- THE LAYER LAW in the reference's names, at node `n` and channel `c`: the aggregate of the rows of `X` weighted by
    the edges' weights is the aggregate of the rows of the pre-scaled `X' = X · D`, scaled by the node's own factor. -/
theorem layer_law_ix (x1 : (⟨S2x1600000, .i32⟩ : BufTy).Contents (Elt Ideal))
    (X X' : (⟨S100000x128, .f32⟩ : BufTy).Contents (Elt Ideal))
    (hX' : ∀ (n : Fin 100000) (k : Fin 128), X' (ix2 n k) = X (ix2 n k) * val_main_v14 (F := Ideal) x1 (ix1 n))
    (n : Fin 100000) (c : Fin 128) :
    Host.scatterAdd (F := Ideal) (φ := .f32) scatter_S100000x128_S1700000x1_S1700000x128_1_0_0_1 (val_main_v41 (F := Ideal))
        (val_main_v42 (F := Ideal) x1)
        (mulf (F := Ideal) (φ := .f32) (Host.gather gather_S100000x128_S1700000x1_S1700000x128_1_0_n_n_0_1_1128 X (val_main_v36 (F := Ideal) x1))
          (val_main_v39 (F := Ideal) x1)) (ix2 n c)
      = Host.scatterAdd (F := Ideal) (φ := .f32) scatter_S100000x128_S1700000x1_S1700000x128_1_0_0_1 (val_main_v41 (F := Ideal))
          (val_main_v42 (F := Ideal) x1)
          (Host.gather gather_S100000x128_S1700000x1_S1700000x128_1_0_n_n_0_1_1128 X' (val_main_v36 (F := Ideal) x1)) (ix2 n c)
        * val_main_v14 (F := Ideal) x1 (ix1 n) :=
  hostScatterAdd_propagate (by norm_num)
    Facts₀.scatter_S100000x128_S1700000x1_S1700000x128_1_0_0_1_wf
    Facts₀.gather_S100000x128_S1700000x1_S1700000x128_1_0_n_n_0_1_1128_wf
    Facts₀.gather_S100000_S1700000x1_S1700000_n_0_n_n_0_1_1_wf
    scatter_S100000x128_S1700000x1_S1700000x128_1_0_0_1 rfl
    gather_S100000x128_S1700000x1_S1700000x128_1_0_n_n_0_1_1128 rfl
    X X' (val_main_v14 (F := Ideal) x1) (v14_nonneg_ne_top x1) hX'
    (val_main_v36 (F := Ideal) x1) (val_main_v42 (F := Ideal) x1) (val_main_v27 (F := Ideal) x1) (v27_eq_v42 x1)
    (val_main_v41 (F := Ideal)) v41_eq_zero (val_main_v39 (F := Ideal) x1) (v39_eq x1) n c

/-- The layer law at a table index `i`: its node is `i`'s row. -/
theorem layer_law (x1 : (⟨S2x1600000, .i32⟩ : BufTy).Contents (Elt Ideal))
    (X X' : (⟨S100000x128, .f32⟩ : BufTy).Contents (Elt Ideal))
    (hX' : ∀ (n : Fin 100000) (k : Fin 128), X' (ix2 n k) = X (ix2 n k) * val_main_v14 (F := Ideal) x1 (ix1 n))
    (i : S100000x128.Idx) :
    Host.scatterAdd (F := Ideal) (φ := .f32) scatter_S100000x128_S1700000x1_S1700000x128_1_0_0_1 (val_main_v41 (F := Ideal))
        (val_main_v42 (F := Ideal) x1)
        (mulf (F := Ideal) (φ := .f32) (Host.gather gather_S100000x128_S1700000x1_S1700000x128_1_0_n_n_0_1_1128 X (val_main_v36 (F := Ideal) x1))
          (val_main_v39 (F := Ideal) x1)) i
      = Host.scatterAdd (F := Ideal) (φ := .f32) scatter_S100000x128_S1700000x1_S1700000x128_1_0_0_1 (val_main_v41 (F := Ideal))
          (val_main_v42 (F := Ideal) x1)
          (Host.gather gather_S100000x128_S1700000x1_S1700000x128_1_0_n_n_0_1_1128 X' (val_main_v36 (F := Ideal) x1)) i
        * val_main_v14 (F := Ideal) x1 (ix1 (i 0)) := by
  obtain ⟨n, c, rfl⟩ : ∃ (n : Fin 100000) (c : Fin 128), i = ix2 n c := ⟨i 0, i 1, eq_ix2 i⟩
  exact layer_law_ix x1 X X' hX' n c

/-! The second layer's stages are the first layer's, under other names. -/

theorem v54_eq_v36 (x1 : (⟨S2x1600000, .i32⟩ : BufTy).Contents (Elt Ideal)) :
    val_main_v54 (F := Ideal) x1 = val_main_v36 (F := Ideal) x1 := rfl
theorem v57_eq_v39 (x1 : (⟨S2x1600000, .i32⟩ : BufTy).Contents (Elt Ideal)) :
    val_main_v57 (F := Ideal) x1 = val_main_v39 (F := Ideal) x1 := rfl
theorem v59_eq_v41 : val_main_v59 (F := Ideal) = val_main_v41 (F := Ideal) := rfl
theorem v60_eq_v42 (x1 : (⟨S2x1600000, .i32⟩ : BufTy).Contents (Elt Ideal)) :
    val_main_v60 (F := Ideal) x1 = val_main_v42 (F := Ideal) x1 := rfl

/-- The layer law for the second layer's aggregate, at node `n` and channel `c`. -/
theorem layer_law_ix' (x1 : (⟨S2x1600000, .i32⟩ : BufTy).Contents (Elt Ideal))
    (X X' : (⟨S100000x128, .f32⟩ : BufTy).Contents (Elt Ideal))
    (hX' : ∀ (n : Fin 100000) (k : Fin 128), X' (ix2 n k) = X (ix2 n k) * val_main_v14 (F := Ideal) x1 (ix1 n))
    (n : Fin 100000) (c : Fin 128) :
    Host.scatterAdd (F := Ideal) (φ := .f32) scatter_S100000x128_S1700000x1_S1700000x128_1_0_0_1 (val_main_v59 (F := Ideal))
        (val_main_v60 (F := Ideal) x1)
        (mulf (F := Ideal) (φ := .f32) (Host.gather gather_S100000x128_S1700000x1_S1700000x128_1_0_n_n_0_1_1128 X (val_main_v54 (F := Ideal) x1))
          (val_main_v57 (F := Ideal) x1)) (ix2 n c)
      = Host.scatterAdd (F := Ideal) (φ := .f32) scatter_S100000x128_S1700000x1_S1700000x128_1_0_0_1 (val_main_v59 (F := Ideal))
          (val_main_v60 (F := Ideal) x1)
          (Host.gather gather_S100000x128_S1700000x1_S1700000x128_1_0_n_n_0_1_1128 X' (val_main_v54 (F := Ideal) x1)) (ix2 n c)
        * val_main_v14 (F := Ideal) x1 (ix1 n) := by
  rw [v54_eq_v36, v57_eq_v39, v59_eq_v41, v60_eq_v42]
  exact layer_law_ix x1 X X' hX' n c

/-- The layer law for the second layer's aggregate, at a table index `i`. -/
theorem layer_law' (x1 : (⟨S2x1600000, .i32⟩ : BufTy).Contents (Elt Ideal))
    (X X' : (⟨S100000x128, .f32⟩ : BufTy).Contents (Elt Ideal))
    (hX' : ∀ (n : Fin 100000) (k : Fin 128), X' (ix2 n k) = X (ix2 n k) * val_main_v14 (F := Ideal) x1 (ix1 n))
    (i : S100000x128.Idx) :
    Host.scatterAdd (F := Ideal) (φ := .f32) scatter_S100000x128_S1700000x1_S1700000x128_1_0_0_1 (val_main_v59 (F := Ideal))
        (val_main_v60 (F := Ideal) x1)
        (mulf (F := Ideal) (φ := .f32) (Host.gather gather_S100000x128_S1700000x1_S1700000x128_1_0_n_n_0_1_1128 X (val_main_v54 (F := Ideal) x1))
          (val_main_v57 (F := Ideal) x1)) i
      = Host.scatterAdd (F := Ideal) (φ := .f32) scatter_S100000x128_S1700000x1_S1700000x128_1_0_0_1 (val_main_v59 (F := Ideal))
          (val_main_v60 (F := Ideal) x1)
          (Host.gather gather_S100000x128_S1700000x1_S1700000x128_1_0_n_n_0_1_1128 X' (val_main_v54 (F := Ideal) x1)) i
        * val_main_v14 (F := Ideal) x1 (ix1 (i 0)) := by
  obtain ⟨n, c, rfl⟩ : ∃ (n : Fin 100000) (c : Fin 128), i = ix2 n c := ⟨i 0, i 1, eq_ix2 i⟩
  exact layer_law_ix' x1 X X' hX' n c

end Cert.LayerLaw

end
-- ==== Proof.BridgeLayers.lean ====
/-
  The two graph-convolution layers: the kernel's arrangement against the reference's.

  The reference multiplies every gathered message by its edge's weight `d[row] · d[col]` and then adds the messages
  onto their target nodes. The kernel scales each node's row by `d` before the gather, adds the unweighted messages,
  and scales each target node's sum by its own `d` afterwards. The two agree because an edge that is added onto node
  `n` has column index `n`, so its weight is `d[row] · d[n]`; multiplication is associative; and the common factor
  `d[n]` — a finite non-negative real, being zero or the inverse square root of a positive count — comes out of the
  sum over the edges. The rest of each layer (the matrix product, the bias, the clamp at zero) is the same operation
  on both sides, read at an index.
-/
import proofs.«174276_j5016521801943_2_alg».proof.Proof.KernelValue
import proofs.«174276_j5016521801943_2_alg».proof.Proof.BridgeReads
import proofs.«174276_j5016521801943_2_alg».proof.Proof.LayerLaw
import Idealize.ShloMosaic.Lib.ValueLayout

set_option maxRecDepth 16384

noncomputable section

namespace Cert.Bridge

open Idealize.ShloMosaic Idealize.ShloMosaic.ValueIdx Idealize.ShloMosaic.TcCoe Idealize.SL.Sem
open Cert.ReferenceIdeal Cert.ReferenceIdeal.ReadP Cert.GcnSpec

variable (x0 : (⟨S100000x128, .f32⟩ : BufTy).Contents (Elt Ideal)) (x1 : (⟨S2x1600000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))

/-- The per-node factor laid out as a column, as the kernel's regions read it. -/
abbrev factorCol : Mat 100000 1 :=
  shapeCast Cert.KernelIdeal.S100000x1 (val_main_v14 (F := Ideal) x1) Cert.KernelIdeal.Facts₀.shapeCasts_S100000_S100000x1

theorem factorCol_apply (n : Fin 100000) (u : Fin 1) : factorCol x1 (ix2 n u) = val_main_v14 (F := Ideal) x1 (ix1 n) :=
  Cert.PropagateLaw.shapeCast_a_a1_apply _ _ n u

/-- A bias vector laid out as a row, as the kernel's regions read it, at a channel. -/
theorem biasRow_apply (b : (⟨S128, .f32⟩ : BufTy).Contents (Elt Ideal)) (k : Fin 128) :
    shapeCast Cert.KernelIdeal.S1x128 b Cert.KernelIdeal.Facts₀.shapeCasts_S128_S1x128 (ix2 (0 : Fin 1) k) = b (ix1 k) :=
  ValueIdx.shapeCast_a_1a_apply _ _ 0 k

/-- One propagation step, in the reference's spelling: the scatter-add, from zeros, onto the column list of the rows
    gathered along the normalised row list. -/
theorem propagate_eq (X' : Mat 100000 128) :
    Cert.KernelIdeal.Fold.propagate (val_main_v3 (F := Ideal) x1) (val_main_v6 (F := Ideal) x1) X'
    = Host.scatterAdd (F := Ideal) (φ := .f32) scatter_S100000x128_S1700000x1_S1700000x128_1_0_0_1 (val_main_v41 (F := Ideal)) (val_main_v42 (F := Ideal) x1)
        (Host.gather gather_S100000x128_S1700000x1_S1700000x128_1_0_n_n_0_1_1128 X' (val_main_v36 (F := Ideal) x1)) := rfl

/-! ## The first layer -/

theorem lidx30 (n : Fin 100000) (k k' : Fin 128) : lidx_main_v30 (ix2 n k) k' = ix2 n k' :=
  funext fun a => by match a with | ⟨0, _⟩ => rfl | ⟨1, _⟩ => rfl
theorem ridx30 (n : Fin 100000) (k k' : Fin 128) : ridx_main_v30 (ix2 n k) k' = ix2 k' k :=
  funext fun a => by match a with | ⟨0, _⟩ => rfl | ⟨1, _⟩ => rfl

/-- The kernel's scaled transform is the reference's product, each row times its node's factor. -/
theorem scaled1 (n : Fin 100000) (k : Fin 128) :
    linScaled x0 x3 (factorCol x1) (ix2 n k) = val_main_v30 (F := Ideal) x0 x3 (ix2 n k) * val_main_v14 (F := Ideal) x1 (ix1 n) := by
  rw [val_main_v30_apply]
  simp only [lidx30, ridx30]
  show (∑ k' : Fin 128, x0 (ix2 n k') * x3 (ix2 k' k)) * factorCol x1 (ix2 n 0) = _
  rw [factorCol_apply]

/-- The kernel's first aggregate, scaled by the target node's factor, is the reference's weighted aggregate. -/
theorem aggregate1_eq (n : Fin 100000) (k : Fin 128) :
    Cert.KernelIdeal.Fold.propagate (val_main_v3 (F := Ideal) x1) (val_main_v6 (F := Ideal) x1) (linScaled x0 x3 (factorCol x1)) (ix2 n k)
      * factorCol x1 (ix2 n 0)
    = val_main_v43 (F := Ideal) x0 x1 x3 (ix2 n k) := by
  rw [propagate_eq, factorCol_apply]
  exact (Cert.LayerLaw.layer_law x1 (val_main_v30 (F := Ideal) x0 x3) (linScaled x0 x3 (factorCol x1)) (scaled1 x0 x1 x3) (ix2 n k)).symm

theorem idx45 (n : Fin 100000) (k : Fin 128) : idx_main_v44 (idx_main_v45 (ix2 n k)) = ix1 k :=
  funext fun a => by match a with | ⟨0, _⟩ => rfl

/-- The first layer's activation: the kernel computes it inside its second region, the reference as its stage 47. -/
theorem hidden1_eq (n : Fin 100000) (k : Fin 128) :
    max (Cert.KernelIdeal.Fold.propagate (val_main_v3 (F := Ideal) x1) (val_main_v6 (F := Ideal) x1) (linScaled x0 x3 (factorCol x1)) (ix2 n k)
          * factorCol x1 (ix2 n 0)
        + shapeCast Cert.KernelIdeal.S1x128 x4 Cert.KernelIdeal.Facts₀.shapeCasts_S128_S1x128 (ix2 (0 : Fin 1) k)) 0
    = val_main_v47 (F := Ideal) x0 x1 x3 x4 (ix2 n k) := by
  rw [aggregate1_eq, biasRow_apply, val_main_v47_apply, val_main_v46_apply, val_main_v45_apply, val_main_v44_apply, idx45]
  show _ = max (val_main_v43 (F := Ideal) x0 x1 x3 (ix2 n k) + x4 (ix1 k)) (Ideal.ofBits .f32 0x00000000#32)
  rw [Ideal.ofBits_zero_f32]

/-! ## The second layer -/

theorem lidx48 (n : Fin 100000) (k k' : Fin 128) : lidx_main_v48 (ix2 n k) k' = ix2 n k' :=
  funext fun a => by match a with | ⟨0, _⟩ => rfl | ⟨1, _⟩ => rfl
theorem ridx48 (n : Fin 100000) (k k' : Fin 128) : ridx_main_v48 (ix2 n k) k' = ix2 k' k :=
  funext fun a => by match a with | ⟨0, _⟩ => rfl | ⟨1, _⟩ => rfl

/-- The kernel's second scaled transform is the reference's second product, each row times its node's factor. -/
theorem scaled2 (n : Fin 100000) (k : Fin 128) :
    layer2Scaled (Cert.KernelIdeal.Fold.propagate (val_main_v3 (F := Ideal) x1) (val_main_v6 (F := Ideal) x1) (linScaled x0 x3 (factorCol x1)))
        (factorCol x1) (shapeCast Cert.KernelIdeal.S1x128 x4 Cert.KernelIdeal.Facts₀.shapeCasts_S128_S1x128) x5 (ix2 n k)
    = val_main_v48 (F := Ideal) x0 x1 x3 x4 x5 (ix2 n k) * val_main_v14 (F := Ideal) x1 (ix1 n) := by
  rw [val_main_v48_apply]
  simp only [lidx48, ridx48]
  show (∑ k' : Fin 128, max (Cert.KernelIdeal.Fold.propagate (val_main_v3 (F := Ideal) x1) (val_main_v6 (F := Ideal) x1)
          (linScaled x0 x3 (factorCol x1)) (ix2 n k') * factorCol x1 (ix2 n 0)
        + shapeCast Cert.KernelIdeal.S1x128 x4 Cert.KernelIdeal.Facts₀.shapeCasts_S128_S1x128 (ix2 (0 : Fin 1) k')) 0 * x5 (ix2 k' k))
      * factorCol x1 (ix2 n 0) = _
  rw [factorCol_apply]
  refine congrArg (· * val_main_v14 (F := Ideal) x1 (ix1 n)) (Finset.sum_congr rfl fun k' _ => ?_)
  rw [← factorCol_apply x1 n 0, hidden1_eq]

theorem idx63 (n : Fin 100000) (k : Fin 128) : idx_main_v62 (idx_main_v63 (ix2 n k)) = ix1 k :=
  funext fun a => by match a with | ⟨0, _⟩ => rfl

/-- The second layer's node embeddings: the kernel's third region's output is the reference's stage 64. -/
theorem embed_eq :
    postScaled
      (Cert.KernelIdeal.Fold.propagate (val_main_v3 (F := Ideal) x1) (val_main_v6 (F := Ideal) x1)
        (layer2Scaled (Cert.KernelIdeal.Fold.propagate (val_main_v3 (F := Ideal) x1) (val_main_v6 (F := Ideal) x1) (linScaled x0 x3 (factorCol x1)))
          (factorCol x1) (shapeCast Cert.KernelIdeal.S1x128 x4 Cert.KernelIdeal.Facts₀.shapeCasts_S128_S1x128) x5))
      (factorCol x1) (shapeCast Cert.KernelIdeal.S1x128 x6 Cert.KernelIdeal.Facts₀.shapeCasts_S128_S1x128)
    = val_main_v64 (F := Ideal) x0 x1 x3 x4 x5 x6 := by
  funext i
  obtain ⟨n, k, rfl⟩ : ∃ (n : Fin 100000) (k : Fin 128), i = ix2 n k := ⟨i 0, i 1, eq_ix2 i⟩
  rw [val_main_v64_apply, val_main_v63_apply, val_main_v62_apply, idx63]
  show Cert.KernelIdeal.Fold.propagate _ _ _ (ix2 n k) * factorCol x1 (ix2 n 0)
      + shapeCast Cert.KernelIdeal.S1x128 x6 Cert.KernelIdeal.Facts₀.shapeCasts_S128_S1x128 (ix2 (0 : Fin 1) k) = _
  rw [biasRow_apply, propagate_eq, factorCol_apply]
  refine congrArg (· + x6 (ix1 k)) ?_
  exact (Cert.LayerLaw.layer_law' x1 (val_main_v48 (F := Ideal) x0 x1 x3 x4 x5) _ (scaled2 x0 x1 x3 x4 x5) (ix2 n k)).symm

end Cert.Bridge

end
-- ==== Proof.ScoreBridge.lean ====
/-
  The reference's score of a pair, read down its last stages, is the pair scorer of the two gathered endpoint tables.

  The reference lays the two endpoint rows of pair `p` side by side (256 columns), contracts them with the whole
  first weight table (256 rows), adds the hidden bias, clamps at zero, contracts the 128 hidden channels with the
  output column, adds the output bias and reads the resulting column back as a vector. A contraction over two
  tables laid side by side is the sum of the two pieces' contractions with the upper and the lower half of the
  weight table, which is how the pair scorer is written; the biases are the same numbers whether they are spread by
  a broadcast or laid out by a change of shape.
-/
import proofs.«174276_j5016521801943_2_alg».proof.Proof.RefReadP
import proofs.«174276_j5016521801943_2_alg».proof.Proof.GcnSpec
import proofs.«174276_j5016521801943_2_alg».proof.Proof.PropagateLaw
import Idealize.ShloMosaic.Lib.ValueLayout
import Idealize.ShloMosaic.Lib.ValueIdx
import Idealize.ShloMosaic.PureOps.Ideal
import Idealize.ShloMosaic.PureOps.Ideal.Laws

noncomputable section

open scoped BigOperators

namespace Cert.ScoreBridge

open Cert.ReferenceIdeal Cert.ReferenceIdeal.Gen Cert.ReferenceIdeal.ReadP Idealize.ShloMosaic Idealize.ShloMosaic.ValueIdx

/-! ## Where each stage reads its operands, at pair `p` -/

/-- The output column's product reads the hidden table at the pair's row … -/
theorem hidden_at (p : Fin 500000) (j : Fin 128) : lidx_main_v89 (idx_main_v93 (ix1 p)) j = ix2 p j :=
  funext fun a => Fin.ext (by
    match a with
    | ⟨0, _⟩ => exact Nat.div_one _
    | ⟨1, _⟩ => rfl)

/-- … and the output column at the hidden channel. -/
theorem column_at (p : Fin 500000) (j : Fin 128) : ridx_main_v89 (idx_main_v93 (ix1 p)) j = ix2 j 0 :=
  funext fun a => Fin.ext (by
    match a with
    | ⟨0, _⟩ => rfl
    | ⟨1, _⟩ => rfl)

/-- The hidden layer's product reads the side-by-side table at the pair's row … -/
theorem pairRow_at (p : Fin 500000) (j : Fin 128) (m : Fin 256) : lidx_main_v84 (ix2 p j) m = ix2 p m :=
  funext fun a => Fin.ext (by
    match a with
    | ⟨0, _⟩ => rfl
    | ⟨1, _⟩ => rfl)

/-- … and the first weight table at the hidden channel's column. -/
theorem weight_at (p : Fin 500000) (j : Fin 128) (m : Fin 256) : ridx_main_v84 (ix2 p j) m = ix2 m j :=
  funext fun a => Fin.ext (by
    match a with
    | ⟨0, _⟩ => rfl
    | ⟨1, _⟩ => rfl)

/-- The hidden bias, spread twice, is read at the hidden channel. -/
theorem bias_at (p : Fin 500000) (j : Fin 128) : idx_main_v85 (idx_main_v86 (ix2 p j)) = ix1 j :=
  funext fun a => Fin.ext (by
    match a with
    | ⟨0, _⟩ => rfl)

/-- The output bias, spread twice, is read at its one entry. -/
theorem outBias_at (p : Fin 500000) : idx_main_v90 (idx_main_v91 (idx_main_v93 (ix1 p))) = ix1 0 :=
  funext fun a => Fin.ext (by
    match a with
    | ⟨0, _⟩ => rfl)

/-! ## The reference's score of pair `p` -/

/-- Read down its stages, the reference's score of pair `p` is: the two endpoint rows laid side by side against the
    whole first weight table, plus the hidden bias, clamped at zero, against the output column, plus the output
    bias. -/
theorem ref_score (x0 : (⟨S100000x128, .f32⟩ : BufTy).Contents (Elt Ideal)) (x1 : (⟨S2x1600000, .i32⟩ : BufTy).Contents (Elt Ideal))
    (x2 : (⟨S2x500000, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S256x128, .f32⟩ : BufTy).Contents (Elt Ideal))
    (x8 : (⟨S128, .f32⟩ : BufTy).Contents (Elt Ideal)) (x9 : (⟨S128x1, .f32⟩ : BufTy).Contents (Elt Ideal))
    (x10 : (⟨S1, .f32⟩ : BufTy).Contents (Elt Ideal))
    (p : Fin 500000) (hrow : (⟨1, ![128]⟩ : Shape).ShapeCasts ⟨2, ![1, 128]⟩)
    (hcell : (⟨1, ![1]⟩ : Shape).ShapeCasts ⟨2, ![1, 1]⟩) :
    val_main_v93 (F := Ideal) x0 x1 x2 x3 x4 x5 x6 x7 x8 x9 x10 (ix1 p)
      = (∑ j : Fin 128, max ((∑ m : Fin 256,
            concatenate ⟨2, ![500000, 256]⟩ 1 [⟨⟨2, ![500000, 128]⟩, val_main_v75 (F := Ideal) x0 x1 x2 x3 x4 x5 x6⟩,
              ⟨⟨2, ![500000, 128]⟩, val_main_v82 (F := Ideal) x0 x1 x2 x3 x4 x5 x6⟩]
              concatenates_S500000x128_S500000x128_S500000x256_d1 (ix2 p m)
              * x7 (ix2 m j)) + shapeCast ⟨2, ![1, 128]⟩ x8 hrow (ix2 0 j)) 0 * x9 (ix2 j 0))
        + shapeCast ⟨2, ![1, 1]⟩ x10 hcell (ix2 0 0) := by
  rw [val_main_v93_apply, val_main_v92_apply, val_main_v91_apply, val_main_v90_apply, val_main_v89_apply,
    outBias_at, shapeCast_a_1a_apply x10 hcell 0 0]
  refine congrArg₂ (· + ·) (Finset.sum_congr rfl fun j _ => ?_) rfl
  rw [hidden_at, column_at, val_main_v88_apply, val_main_v87_apply, val_main_v86_apply, val_main_v85_apply,
    val_main_v84_apply, val_main_call2_v0_apply, val_main_call2_cst_apply, bias_at,
    shapeCast_a_1a_apply x8 hrow 0 j]
  show max ((∑ m : Fin 256, val_main_v83 (F := Ideal) x0 x1 x2 x3 x4 x5 x6 (lidx_main_v84 (ix2 p j) m)
      * x7 (ridx_main_v84 (ix2 p j) m)) + x8 (ix1 j)) (Ideal.ofBits .f32 0x00000000#32) * x9 (ix2 j 0) = _
  rw [Ideal.ofBits_zero_f32]
  refine congrArg (· * x9 (ix2 j 0)) (congrArg (max · 0) (congrArg (· + x8 (ix1 j)) ?_))
  refine Finset.sum_congr rfl fun m _ => ?_
  rw [pairRow_at, weight_at]
  rfl

/-- THE BRIDGE: the reference's score of pair `p` is the pair scorer of the two gathered endpoint tables, the two
    halves of the first weight table, the hidden bias as a row, the output column and the output bias as a cell. -/
theorem score_eq_pairScore (x0 : (⟨S100000x128, .f32⟩ : BufTy).Contents (Elt Ideal)) (x1 : (⟨S2x1600000, .i32⟩ : BufTy).Contents (Elt Ideal))
    (x2 : (⟨S2x500000, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S256x128, .f32⟩ : BufTy).Contents (Elt Ideal))
    (x8 : (⟨S128, .f32⟩ : BufTy).Contents (Elt Ideal)) (x9 : (⟨S128x1, .f32⟩ : BufTy).Contents (Elt Ideal))
    (x10 : (⟨S1, .f32⟩ : BufTy).Contents (Elt Ideal))
    (p : Fin 500000)
    (h₁ : (⟨2, ![256, 128]⟩ : Shape).Slices ![0, 0] ⟨2, ![128, 128]⟩)
    (h₂ : (⟨2, ![256, 128]⟩ : Shape).Slices ![128, 0] ⟨2, ![128, 128]⟩)
    (hrow : (⟨1, ![128]⟩ : Shape).ShapeCasts ⟨2, ![1, 128]⟩)
    (hcell : (⟨1, ![1]⟩ : Shape).ShapeCasts ⟨2, ![1, 1]⟩) :
    val_main_v93 (F := Ideal) x0 x1 x2 x3 x4 x5 x6 x7 x8 x9 x10 (ix1 p)
      = Cert.GcnSpec.pairScore (val_main_v75 (F := Ideal) x0 x1 x2 x3 x4 x5 x6)
          (val_main_v82 (F := Ideal) x0 x1 x2 x3 x4 x5 x6)
          (extractStridedSlice ⟨2, ![128, 128]⟩ ![0, 0] x7 h₁) (extractStridedSlice ⟨2, ![128, 128]⟩ ![128, 0] x7 h₂)
          (shapeCast ⟨2, ![1, 128]⟩ x8 hrow) x9 (shapeCast ⟨2, ![1, 1]⟩ x10 hcell) (ix2 p 0) :=
  (ref_score x0 x1 x2 x3 x4 x5 x6 x7 x8 x9 x10 p hrow hcell).trans
    (Cert.PropagateLaw.pairScore_eq_cat concatenates_S500000x128_S500000x128_S500000x256_d1 h₁ h₂
      (val_main_v75 (F := Ideal) x0 x1 x2 x3 x4 x5 x6) (val_main_v82 (F := Ideal) x0 x1 x2 x3 x4 x5 x6) x7
      (shapeCast ⟨2, ![1, 128]⟩ x8 hrow) x9 (shapeCast ⟨2, ![1, 1]⟩ x10 hcell) p).symm

end Cert.ScoreBridge

end
-- ==== Proof.BridgeResult.lean ====
/-
  The kernel's result is the reference's.

  Reading the kernel's result buffer backwards: it is the last region's score column laid out flat; that region scores
  the second layer's embeddings gathered at the pairs' endpoints; the embeddings are the third region's output, which
  by the two layers' agreement is the reference's embedding stage; the endpoint gathers are then the reference's own
  gathers, and the scorer's two arrangements (two half-width products summed, against one product with the
  concatenated rows) are one sum.
-/
import proofs.«174276_j5016521801943_2_alg».proof.Proof.BridgeLayers
import proofs.«174276_j5016521801943_2_alg».proof.Proof.ScoreBridge

set_option maxRecDepth 16384

noncomputable section

namespace Cert.Bridge

open Idealize.ShloMosaic Idealize.ShloMosaic.ValueIdx Idealize.ShloMosaic.TcCoe Idealize.SL.Sem
open Cert.ReferenceIdeal Cert.ReferenceIdeal.ReadP Cert.GcnSpec

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The second layer's embeddings, as the last host stretch finds them, are the reference's. -/
theorem embeddings_eq : Cert.KernelIdeal.Gen.W8 m ρ c (Proc.devRef .tc Cert.KernelIdeal.main_v40)
    = val_main_v64 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) := by
  rw [Cert.KernelIdeal.Whole.out2 m ρ c, Cert.KernelIdeal.Whole.out1 m ρ c, Cert.KernelIdeal.Whole.out0 m ρ c, rows_eq m ρ c, cols_eq m ρ c, factor_eq m ρ c]
  exact embed_eq (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6))

/-- The kernel's result buffer after its run holds the reference's result, as a function of the launch arguments. -/
theorem kernel_result : Cert.KernelIdeal.Gen.W11 m ρ c (Proc.devRef .tc Cert.KernelIdeal.main_v64)
    = val_main_v93 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) := by
  rw [Cert.KernelIdeal.Whole.result m ρ c, Cert.KernelIdeal.Whole.out3 m ρ c, embeddings_eq m ρ c]
  funext p
  obtain ⟨q, rfl⟩ : ∃ q : Fin 500000, p = ix1 q := ⟨p 0, eq_ix1 p⟩
  refine (Cert.PropagateLaw.shapeCast_a1_a_apply _ _ q).trans ?_
  exact (Cert.ScoreBridge.score_eq_pairScore (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) q
    Cert.KernelIdeal.Facts₀.slices_S256x128_S128x128_0_0 Cert.KernelIdeal.Facts₀.slices_S256x128_S128x128_128_0
    Cert.KernelIdeal.Facts₀.shapeCasts_S128_S1x128 Cert.KernelIdeal.Facts₀.shapeCasts_S1_S1x1).symm

end Cert.Bridge

end
-- ==== Proof.lean ====
/-
  Two graph-convolution layers with symmetric normalisation, then a two-layer scorer of node pairs: a kernel of four
  grid regions among host gathers and scatter-adds, against a plain reference.

  With `d` the per-node factor (zero, or the inverse square root of the node's positive in-degree, self loop
  included), the reference weighs every message by `d[source] · d[target]` and adds the messages onto their targets;
  the kernel scales each node's transformed row by `d` before the messages are gathered, adds the unweighted
  messages, and scales each target's sum by its own `d` afterwards, fusing the bias and the clamp at zero into the next
  region. Over the extended reals the two agree: an added edge's target is the node it is added onto, multiplication is
  associative, and a finite non-negative factor comes out of a sum. The scorer multiplies the two endpoints' embeddings
  by the two halves of one weight matrix and adds, where the reference concatenates the embeddings and multiplies
  once: one sum over 256 terms split in two. No finiteness of the float inputs is used.

  The frames of the two printed kernels are generated; the reference's frame is its generated run with the result
  dropped. The idealization rewrote no operation, so `preserves` holds trivially. For `algebraic` both runs are posted
  at one term: the reference's last stage as a function of the arguments (`Proof/BridgeResult.lean` for the kernel's
  side, over the kernel's run with its result named, `Proof/KernelRun.lean`).
-/
import proofs.«174276_j5016521801943_2_alg».proof.Defs
import proofs.«174276_j5016521801943_2_alg».proof.Proof.Gen.Kernel
import proofs.«174276_j5016521801943_2_alg».proof.Proof.Gen.Kernel.Frame
import proofs.«174276_j5016521801943_2_alg».proof.Proof.Gen.KernelIdeal
import proofs.«174276_j5016521801943_2_alg».proof.Proof.Gen.KernelIdeal.Frame
import proofs.«174276_j5016521801943_2_alg».proof.Proof.Gen.ReferenceIdeal
import proofs.«174276_j5016521801943_2_alg».proof.Proof.Gen.Pre_finite_inputs
import proofs.«174276_j5016521801943_2_alg».proof.Proof.RefRunP
import proofs.«174276_j5016521801943_2_alg».proof.Proof.RefReadP
import proofs.«174276_j5016521801943_2_alg».proof.Proof.KernelRun
import proofs.«174276_j5016521801943_2_alg».proof.Proof.BridgeResult
import Idealize.ShloMosaic.Adequacy
import Idealize.ShloMosaic.Init

noncomputable section

namespace Cert.Proof

open Idealize.ShloMosaic Idealize.SL.Sem

/-- The printed kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both idealized programs, from memories agreeing on the arguments, end with the reference's last stage of those
    arguments in their result buffers. -/
theorem algebraic : Cert.algebraic_KernelIdeal_ReferenceIdeal := by
  intro m ρ m' ρ' _ hagree
  refine ⟨fun c => Cert.ReferenceIdeal.ReadP.val_main_v93 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.Bridge.kernel_result m ρ c), (h c).2⟩)
      (Cert.KernelIdeal.RunValue.run_result m ρ)
  · refine (θ_run Cert.ReferenceIdeal.defs _ _).mono (fun r h c => ⟨?_, (h c).2⟩) (Cert.ReferenceIdeal.ValueP.run (F := Ideal) m' ρ')
    obtain ⟨e0, e1, e2, e3, e4, e5, e6, e7, e8, e9, e10⟩ := hagree c
    rw [(h c).1, Cert.ReferenceIdeal.ReadP.val_main_v93_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
